-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 9
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S512x1024_S512x1024 : S512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KRegion0.lean ====
/-
  The projection kernel, one grid point at a time.

  The grid has 8 points.  At point t the kernel is handed rows 512 t .. 512 t + 511 of x (a block of
  512 x 1024) and the three weight matrices whole, and it overwrites three output blocks of
  512 x 1024: the block of x wq scaled by the word of 1/32, the block of x wk, and the block of
  x wv (this one with bf16 operands and a bf16 result).  Each output block is written by ONE store
  of the whole block, so what it holds afterwards is a function of the input blocks alone.

  This module names those three functions, proves that the body run on buffers holding the input
  blocks leaves exactly them (and the inputs as they were), and states the per-point data of the
  pipeline: at every point each input buffer holds its block of the array found on entry (the
  weights are fetched at the first point only and are still there at the later ones), and each
  output buffer holds the function of the input blocks at that point.
-/
import proofs.«174663_j13460427505739_2_alg».proof.Proof.Gen.Kernel.Launch
import proofs.«174663_j13460427505739_2_alg».proof.Proof.Gen.Kernel.Skeleton
import proofs.«174663_j13460427505739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the projection region is entered
variable (V : (c : Dev nD) → (b : Ref sig .tc) → Buf (Elt F) ((c : Thread nD τ).loc b))

/-! ## The windows' blocks -/

/-- Window `w`'s block at point `t`, read off its array as found on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block of the entry array at every point, fetched there or not
    (a window not fetched at a point has the block index of the point before, so the block kept is this point's),
    for any per-point data whose array is the entry array and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block of the entry array at every point, fetched there or not
    (a window not fetched at a point has the block index of the point before, so the block kept is this point's),
    for any per-point data whose array is the entry array and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block of the entry array at every point, fetched there or not
    (a window not fetched at a point has the block index of the point before, so the block kept is this point's),
    for any per-point data whose array is the entry array and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block of the entry array at every point, fetched there or not
    (a window not fetched at a point has the block index of the point before, so the block kept is this point's),
    for any per-point data whose array is the entry array and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole of a 512 x 1024 buffer. -/
abbrev rBlock : Rect S512x1024 := Rect.unit (s := S512x1024) ![0, 0] S512x1024.size inb_S512x1024_S512x1024_0_0
/-- The whole of a 1024 x 1024 buffer. -/
abbrev rWeight : Rect S1024x1024 := Rect.unit (s := S1024x1024) ![0, 0] S1024x1024.size inb_S1024x1024_S1024x1024_0_0

/-! ## What the body leaves in each output buffer -/

/-- The scaled query block: the one store of (x wq) times the word of 1/32, from the x block and wq. -/
def out0_4 (x0 : Vec F S512x1024 .f32) (x1 : Vec F S1024x1024 .f32) : Vec F S512x1024 .f32 :=
  View.canon [⟨rBlock, k0_pay2 (View.ld x0 rBlock) (View.ld x1 rWeight)⟩]

/-- The key block: the one store of x wk, from the x block and wk. -/
def out0_5 (x0 : Vec F S512x1024 .f32) (x2 : Vec F S1024x1024 .f32) : Vec F S512x1024 .f32 :=
  View.canon [⟨rBlock, k0_pay1 (View.ld x0 rBlock) (View.ld x2 rWeight)⟩]

/-- The value block: the one store of x wv in bf16, from the x block and the bf16 wv. -/
def out0_6 (x0 : Vec F S512x1024 .f32) (x3 : Vec F S1024x1024 .bf16) : Vec F S512x1024 .bf16 :=
  View.canon [⟨rBlock, k0_pay3 (View.ld x0 rBlock) (View.ld x3 rWeight)⟩]

/-- One store of the whole block covers the block (f32). -/
theorem cover_f32 (p0 : Vec F S512x1024 .f32) (y : S512x1024.Idx) :
    ∃ pc ∈ ([⟨rBlock, p0⟩] : List (View.Piece (Elt F) S512x1024 .f32)), y ∈ pc.1.set :=
  View.cover_of_tiled [⟨rBlock, p0⟩] S512x1024.size (by rfl) y

/-- One store of the whole block covers the block (bf16). -/
theorem cover_bf16 (p0 : Vec F S512x1024 .bf16) (y : S512x1024.Idx) :
    ∃ pc ∈ ([⟨rBlock, p0⟩] : List (View.Piece (Elt F) S512x1024 .bf16)), y ∈ pc.1.set :=
  View.cover_of_tiled [⟨rBlock, p0⟩] S512x1024.size (by rfl) y

/-! ## The body's triple -/

set_option maxHeartbeats 1000000 in
/-- The body on whole buffers, the four inputs' at contents x0 .. x3 and the three outputs' at anything, runs to the
    continuation with the inputs as they were and the outputs at the three functions above. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole)
    (x0 : Vec F S512x1024 .f32) (x1 : Vec F S1024x1024 .f32) (x2 : Vec F S1024x1024 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__project_kernel i arg1 harg1 arg2 harg2 arg3 harg3 arg4 harg4 arg5 harg5 arg6 harg6 arg7 harg7) K := by
  simp only [cc0__project_kernel_eq_skeleton]; unfold cc0__project_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  isplitl [H6]
  · iexists _; isplitr
    swap; · iexact H6
    ipureintro
    exact View.read_writes_eq_canon _ _ _ (cover_f32 _)
  iexists _; isplitr
  swap; · iexact H7
  ipureintro
  exact View.read_writes_eq_canon _ _ _ (cover_bf16 _)

/-! ## The pipeline's per-point data -/

/-- The data of the projection pipeline on core `c`: the arrays as found on entry; after the body at point `t` each input
    buffer still at its block and each output buffer at its function of the input blocks; the invariant is the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Base.lean ====
/-
  The attention kernel (the second kernel region): what its runs are stated over.

  The region walks a grid of 4 x 8 points: query tile qi (1024 rows) against key tile ki (512 rows).
  Point t has ki = t mod 8.  At ki = 0 the body resets its three scratch buffers (running maximum,
  running denominator, running numerator); at every point it folds one key tile into them; at
  ki = 7 it also divides numerator by denominator into the output block, which is written back
  there and nowhere else.  Between points the scratch keeps what the point before left.
-/
import proofs.«174663_j13460427505739_2_alg».proof.Proof.Gen.Kernel.Launch
import proofs.«174663_j13460427505739_2_alg».proof.Proof.Gen.Kernel.Skeleton
import proofs.«174663_j13460427505739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the key block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the value block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions -/

/-- "This is the first key tile" (ki = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points with t mod 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile" (ki = 7). -/
abbrev cond1_1 (i : grid1.Coords) : Prop := k1_cond2 i = 1#1
/-- It holds at the points with t mod 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the body stores nothing into the output block, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- On the last key tile the body stores the output block. -/
theorem liveAt1_3 : ∀ t : Fin cfg1.N, cond1_1 (grid1.coords t) → cfg1.idle 3 (grid1.coords t) = false := by decide +kernel

/-! ## The staging and scratch memrefs -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The running maximum, the running denominator, the running numerator: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The other kernel's staging buffers, each whole at some contents: they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's resting invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.KRegion1RunA.lean ====
/-
  The attention kernel's body at a point of the FIRST key tile (ki = 0), run whole: the scratch
  buffers are reset (maximum to -inf, denominator and numerator to 0), the tile is folded in, and the
  output block is left as it was.  The pieces each scratch buffer ends with are found by the run.
-/
import proofs.«174663_j13460427505739_2_alg».proof.Proof.KRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output block at contents handed back untouched, the scratch at
    anything — the body at a first-key-tile point runs to the continuation holding the inputs as they were, the output block
    untouched, and each scratch buffer with its pieces written. -/
noncomputable def kernelRun1_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S512x1024 .f32) (x2 : Vec F S512x1024 .bf16) :
    Σ' (LS0 : List (View.Piece (Elt F) S1024x1 .f32)), Σ' (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KRegion1RunB.lean ====
/-
  The attention kernel's body at a point of a MIDDLE key tile (0 < ki < 7), run whole: the tile is
  folded into the scratch buffers as the point before left them, and the output block is left as it was.
-/
import proofs.«174663_j13460427505739_2_alg».proof.Proof.KRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output block at contents handed back untouched, the scratch at
    what the point before left — the body at a middle point runs to the continuation holding the inputs as they were, the
    output block untouched, and each scratch buffer with its pieces written. -/
noncomputable def kernelRun1_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (LS0 : List (View.Piece (Elt F) S1024x1 .f32)), Σ' (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KRegion1RunC.lean ====
/-
  The attention kernel's body at a point of the LAST key tile (ki = 7), run whole: the tile is folded
  into the scratch buffers as the point before left them, and numerator over denominator is stored into
  the output block.
-/
import proofs.«174663_j13460427505739_2_alg».proof.Proof.KRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output block at anything, the scratch at what the point before
    left — the body at a last-key-tile point runs to the continuation holding the inputs as they were, and the output block
    and each scratch buffer with their pieces written. -/
noncomputable def kernelRun1_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (L3 : List (View.Piece (Elt F) S1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KRegion1.lean ====
/-
  The attention kernel region, point by point.

  What the body leaves in the three scratch buffers (running maximum, denominator, numerator) and in
  the output block in each of its three cases — first key tile, middle key tile, last key tile — and
  the accumulation over the grid: at a first-key-tile point the scratch is rebuilt from the point's
  blocks alone, at every other point from the point's blocks and what the point before left.  The
  region's invariant carries the scratch at exactly those contents from one point to the next; with
  it the body meets the pipeline's obligation at every point.
-/
import proofs.«174663_j13460427505739_2_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a point of the grid -/

/-- The first-key-tile run at point t, on the point's memrefs and blocks. -/
def runA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)
/-- The middle run at point t, over the scratch contents p the point before left. -/
def runB (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2
/-- The last-key-tile run at point t, over the scratch contents p the point before left. -/
def runC (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2

/-- What a first-key-tile point leaves: (output block — untouched, a placeholder nothing reads —, maximum, denominator, numerator). -/
def leftA (c : Dev nD) (t : Fin cfg1.N) (hc0 : cond1_0 (grid1.coords t)) (hc1 : ¬cond1_1 (grid1.coords t)) : Vec F S1024x1024 .f32 × Vec F S1024x1 .f32 × Vec F S1024x1 .f32 × Vec F S1024x1024 .f32 :=
  (VO1_3.read (Elt F) (VO1_3.writes (Elt F) VO1_3.junk []), VS1_0.read (Elt F) (VS1_0.writes (Elt F) VS1_0.junk (runA V c t hc0 hc1).1), VS1_1.read (Elt F) (VS1_1.writes (Elt F) VS1_1.junk (runA V c t hc0 hc1).2.1), VS1_2.read (Elt F) (VS1_2.writes (Elt F) VS1_2.junk (runA V c t hc0 hc1).2.2.1))
/-- What a middle point leaves. -/
def leftB (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk []), VS1_0.read (Elt F) (VS1_0.writes (Elt F) VS1_0.junk (runB V c t hc0 hc1 p).1), VS1_1.read (Elt F) (VS1_1.writes (Elt F) VS1_1.junk (runB V c t hc0 hc1 p).2.1), VS1_2.read (Elt F) (VS1_2.writes (Elt F) VS1_2.junk (runB V c t hc0 hc1 p).2.2.1))
/-- What a last-key-tile point leaves: the output block stored, too. -/
def leftC (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk (runC V c t hc0 hc1 p).1), VS1_0.read (Elt F) (VS1_0.writes (Elt F) VS1_0.junk (runC V c t hc0 hc1 p).2.1), VS1_1.read (Elt F) (VS1_1.writes (Elt F) VS1_1.junk (runC V c t hc0 hc1 p).2.2.1), VS1_2.read (Elt F) (VS1_2.writes (Elt F) VS1_2.junk (runC V c t hc0 hc1 p).2.2.2.1))

/-! ## Each case's stores cover the buffers they leave -/
theorem coverA_0 (c : Dev nD) (t : Fin cfg1.N) (hc0 : cond1_0 (grid1.coords t)) (hc1 : ¬cond1_1 (grid1.coords t)) (y : S1024x1.Idx) :
    ∃ pc ∈ (runA V c t hc0 hc1).1, y ∈ pc.1.set :=
  View.cover_of_tiledL (runA V c t hc0 hc1).1 S1024x1.size (by sl_kernel_rfl) y
theorem coverA_1 (c : Dev nD) (t : Fin cfg1.N) (hc0 : cond1_0 (grid1.coords t)) (hc1 : ¬cond1_1 (grid1.coords t)) (y : S1024x1.Idx) :
    ∃ pc ∈ (runA V c t hc0 hc1).2.1, y ∈ pc.1.set :=
  View.cover_of_tiledL (runA V c t hc0 hc1).2.1 S1024x1.size (by sl_kernel_rfl) y
theorem coverA_2 (c : Dev nD) (t : Fin cfg1.N) (hc0 : cond1_0 (grid1.coords t)) (hc1 : ¬cond1_1 (grid1.coords t)) (y : S1024x1024.Idx) :
    ∃ pc ∈ (runA V c t hc0 hc1).2.2.1, y ∈ pc.1.set :=
  View.cover_of_tiledL (runA V c t hc0 hc1).2.2.1 S1024x1024.size (by sl_kernel_rfl) y
theorem coverB_0 (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) (y : S1024x1.Idx) :
    ∃ pc ∈ (runB V c t hc0 hc1 p).1, y ∈ pc.1.set :=
  View.cover_of_tiledL (runB V c t hc0 hc1 p).1 S1024x1.size (by sl_kernel_rfl) y
theorem coverB_1 (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) (y : S1024x1.Idx) :
    ∃ pc ∈ (runB V c t hc0 hc1 p).2.1, y ∈ pc.1.set :=
  View.cover_of_tiledL (runB V c t hc0 hc1 p).2.1 S1024x1.size (by sl_kernel_rfl) y
theorem coverB_2 (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) (y : S1024x1024.Idx) :
    ∃ pc ∈ (runB V c t hc0 hc1 p).2.2.1, y ∈ pc.1.set :=
  View.cover_of_tiledL (runB V c t hc0 hc1 p).2.2.1 S1024x1024.size (by sl_kernel_rfl) y
theorem coverC_0 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1.Idx) :
    ∃ pc ∈ (runC V c t hc0 hc1 p).2.1, y ∈ pc.1.set :=
  View.cover_of_tiledL (runC V c t hc0 hc1 p).2.1 S1024x1.size (by sl_kernel_rfl) y
theorem coverC_1 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1.Idx) :
    ∃ pc ∈ (runC V c t hc0 hc1 p).2.2.1, y ∈ pc.1.set :=
  View.cover_of_tiledL (runC V c t hc0 hc1 p).2.2.1 S1024x1.size (by sl_kernel_rfl) y
theorem coverC_2 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1024.Idx) :
    ∃ pc ∈ (runC V c t hc0 hc1 p).2.2.2.1, y ∈ pc.1.set :=
  View.cover_of_tiledL (runC V c t hc0 hc1 p).2.2.2.1 S1024x1024.size (by sl_kernel_rfl) y
theorem coverC_3 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1024.Idx) :
    ∃ pc ∈ (runC V c t hc0 hc1 p).1, y ∈ pc.1.set :=
  View.cover_of_tiledL (runC V c t hc0 hc1 p).1 S1024x1024.size (by sl_kernel_rfl) y

/-! ## What the buffers hold after each point -/

/-- The accumulation: what the output block and the three scratch buffers hold after the body at position n. -/
def outsAt1 (c : Dev nD) : (n : ℕ) → n < cfg1.N → Vec F S1024x1024 .f32 × Vec F S1024x1 .f32 × Vec F S1024x1 .f32 × Vec F S1024x1024 .f32
  | 0, hn => leftA V c ⟨0, hn⟩ ((hcond1_0 ⟨0, hn⟩).mpr (Nat.zero_mod _)) (fun h => by have h' := (hcond1_1 ⟨0, hn⟩).mp h; (try dsimp only at h'); omega)
  | n + 1, hn =>
    if h0 : (n + 1) % 8 = 0 then
      leftA V c ⟨n + 1, hn⟩ ((hcond1_0 ⟨n + 1, hn⟩).mpr h0) (fun h => by have h' := (hcond1_1 ⟨n + 1, hn⟩).mp h; (try dsimp only at h'); omega)
    else if h1 : (n + 1) % 8 = 7 then
      leftC V c ⟨n + 1, hn⟩ (fun h => h0 ((hcond1_0 ⟨n + 1, hn⟩).mp h)) ((hcond1_1 ⟨n + 1, hn⟩).mpr h1) (outsAt1 c n (Nat.lt_of_succ_lt hn))
    else
      leftB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (hc0 : cond1_0 (grid1.coords t)) (hc1 : ¬cond1_1 (grid1.coords t)) :
    outsAt1 V c t.val t.isLt = leftA V c t hc0 hc1 := by
  obtain ⟨n, hn⟩ := t
  cases n with
  | zero => rfl
  | succ n => exact dif_pos h0

theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt = leftB V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt = leftC V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- Before position n: at the start the resting invariant (every scoped buffer at anything); afterwards the three scratch
    buffers at what the point before left, the other kernel's staging buffers at anything, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ others1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ others1 c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ others1 c) ∗ (∃ r, prngReg c r)) := by
  cases n with
  | zero => exact absurd rfl hz
  | succ n => rfl

/-- The resting invariant, sorted: the scratch at anything, the other kernel's staging buffers, the generator register. -/
theorem PhiA1_split (c : Dev nD) :
    (Pipeline.ΦA spec1 c : sProp 𝕄) ⊢ iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
  rw [PhiA1_eq]; unfold others1
  iintro ⟨⟨B1, B2, B3, B4, B5, B6, B7, B8, B9, B10, B11, HS0, HS1, HS2⟩, Hg⟩
  isplitr [Hg]
  · isplitl [HS0]; · iexact HS0
    isplitl [HS1]; · iexact HS1
    isplitl [HS2]; · iexact HS2
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  · iexact Hg

/-- and put back. -/
theorem PhiA1_join (c : Dev nD) :
    iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) ⊢ (Pipeline.ΦA spec1 c : sProp 𝕄) := by
  rw [PhiA1_eq]; unfold others1
  iintro ⟨⟨HS0, HS1, HS2, B1, B2, B3, B4, B5, B6, B7, B8, B9, B10, B11⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [HS0]; · iexact HS0
    isplitl [HS1]; · iexact HS1
    iexact HS2
  · iexact Hg

/-! ## The pipeline's proof data -/

/-- The proof data of the attention pipeline on core c: the arrays as the region finds them; after the body at point t the
    inputs' buffers at their blocks and the output's at the accumulation's first component; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- Scratch contents forgotten: owned at named contents is owned at some contents. -/
theorem forget1 (c : Dev nD) (a b : Vec F S1024x1 .f32) (e : Vec F S1024x1024 .f32) :
    iprop(iprop(owns (c : Thread nD τ) scM1_0 fullShare a ∗ owns (c : Thread nD τ) scM1_1 fullShare b ∗ owns (c : Thread nD τ) scM1_2 fullShare e ∗ others1 c) ∗ (∃ r, prngReg c r))
      ⊢ (iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) : sProp 𝕄) := by
  iintro ⟨⟨HS0, HS1, HS2, Ho⟩, Hg⟩
  isplitr [Hg]
  · isplitl [HS0]; · iexists _; iexact HS0
    isplitl [HS1]; · iexists _; iexact HS1
    isplitl [HS2]; · iexists _; iexact HS2
    iexact Ho
  · iexact Hg

/-- After any point but the first the invariant gives the resting invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  exact (forget1 c _ _ _).trans (PhiA1_join c)

theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.KRegion1Body.lean ====
/-
  The attention kernel meets the pipeline's obligation at every point of its grid.

  At a point the body is handed the invariant (the scratch at what the point before left, or at
  anything before the first point), the three input blocks in their staging buffers and the output's
  staging buffer.  The point's key tile index decides the case; the case's run takes the scratch in
  and gives it back at the accumulation's next value; off the last key tile the output's buffer goes
  back untouched, on it with numerator over denominator stored.
-/
import proofs.«174663_j13460427505739_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 32 := lt_of_lt_of_eq t.isLt (show cfg1.N = 32 from N_1)
  by_cases h0 : t.val % 8 = 0
  · have hc0 : cond1_0 (grid1.coords t) := (hcond1_0 t).mpr h0
    have hc1 : ¬cond1_1 (grid1.coords t) := fun h => by have h' := (hcond1_1 t).mp h; omega
    rw [Dat.leavesExact_idle (dat1 V c) 3 t (idleAt1_3 t hc1) (noFlush1_3 t hc1)]
    rw [outsAt1_A V c t h0 hc0 hc1]
    unfold leftA; (try dsimp only)
    by_cases hz : t.val = 0
    · rw [PhiS_castSucc V c t, PhiS_zero V c _ _ hz]
      · iintro ⟨HΦ, Ho, ⟨%d0, H0⟩, ⟨%d1, H1⟩, ⟨%d2, H2⟩, ⟨%d3, H3⟩⟩
        ihave HΦ' := (PhiA1_split (F := F) c) $$ HΦ
        icases HΦ' with ⟨⟨HS0, HS1, HS2, Hoth⟩, Hg⟩
        iapply ((runA V c t hc0 hc1).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverA_0 V c t hc0 hc1)
          isplitl [HS1]
          · unfold owns; iexists _; isplitr
            swap; · iexact HS1
            ipureintro; exact View.read_writes_of_cover _ _ _ _ _ (coverA_1 V c t hc0 hc1)
          isplitl [HS2]
          · unfold owns; iexists _; isplitr
            swap; · iexact HS2
            ipureintro; exact View.read_writes_of_cover _ _ _ _ _ (coverA_2 V c t hc0 hc1)
          iexact Hoth
        isplitl [Ho]; · iexact Ho
        isplitl [H0]; · iexact H0
        isplitl [H1]; · iexact H1
        isplitl [H2]; · iexact H2
        iexists _; iexact H3
    · rw [PhiS_castSucc V c t, PhiS_pos V c _ _ hz]
      · iintro ⟨⟨⟨HS0, HS1, HS2, Hoth⟩, Hg⟩, Ho, ⟨%d0, H0⟩, ⟨%d1, H1⟩, ⟨%d2, H2⟩, ⟨%d3, H3⟩⟩
        iapply ((runA V c t hc0 hc1).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverA_0 V c t hc0 hc1)
          isplitl [HS1]
          · unfold owns; iexists _; isplitr
            swap; · iexact HS1
            ipureintro; exact View.read_writes_of_cover _ _ _ _ _ (coverA_1 V c t hc0 hc1)
          isplitl [HS2]
          · unfold owns; iexists _; isplitr
            swap; · iexact HS2
            ipureintro; exact View.read_writes_of_cover _ _ _ _ _ (coverA_2 V c t hc0 hc1)
          iexact Hoth
        isplitl [Ho]; · iexact Ho
        isplitl [H0]; · iexact H0
        isplitl [H1]; · iexact H1
        isplitl [H2]; · iexact H2
        iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1 hc0 hc1]
      unfold leftC; (try dsimp only)
      rw [PhiS_castSucc V c t, PhiS_pos V c _ _ hz]
      · iintro ⟨⟨⟨HS0, HS1, HS2, Hoth⟩, Hg⟩, Ho, ⟨%d0, H0⟩, ⟨%d1, H1⟩, ⟨%d2, H2⟩, ⟨%d3, H3⟩⟩
        iapply ((runC V c t hc0 hc1 _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverC_0 V c t hc0 hc1 _)
          isplitl [HS1]
          · unfold owns; iexists _; isplitr
            swap; · iexact HS1
            ipureintro; exact View.read_writes_of_cover _ _ _ _ _ (coverC_1 V c t hc0 hc1 _)
          isplitl [HS2]
          · unfold owns; iexists _; isplitr
            swap; · iexact HS2
            ipureintro; exact View.read_writes_of_cover _ _ _ _ _ (coverC_2 V c t hc0 hc1 _)
          iexact Hoth
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverC_3 V c t hc0 hc1 _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1 hc0 hc1]
      unfold leftB; (try dsimp only)
      rw [PhiS_castSucc V c t, PhiS_pos V c _ _ hz]
      · iintro ⟨⟨⟨HS0, HS1, HS2, Hoth⟩, Hg⟩, Ho, ⟨%d0, H0⟩, ⟨%d1, H1⟩, ⟨%d2, H2⟩, ⟨%d3, H3⟩⟩
        iapply ((runB V c t hc0 hc1 _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverB_0 V c t hc0 hc1 _)
          isplitl [HS1]
          · unfold owns; iexists _; isplitr
            swap; · iexact HS1
            ipureintro; exact View.read_writes_of_cover _ _ _ _ _ (coverB_1 V c t hc0 hc1 _)
          isplitl [HS2]
          · unfold owns; iexists _; isplitr
            swap; · iexact HS2
            ipureintro; exact View.read_writes_of_cover _ _ _ _ _ (coverB_2 V c t hc0 hc1 _)
          iexact Hoth
        isplitl [Ho]; · iexact Ho
        isplitl [H0]; · iexact H0
        isplitl [H1]; · iexact H1
        isplitl [H2]; · iexact H2
        iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program, run: a conversion of the value weights to the shorter float format, the
  projection kernel, the attention kernel.

  Core c's buffers at each boundary: as launched; after the conversion; after the projection
  region (its three output arrays at what its write-backs leave, everything else as before); after
  the attention region (its output array likewise).  Every weakly fair execution terminates with
  every unscoped buffer at the last of these; the four argument arrays are written by nothing, so
  they read back as launched.
-/
import proofs.«174663_j13460427505739_2_alg».proof.Proof.KRegion0
import proofs.«174663_j13460427505739_2_alg».proof.Proof.KRegion1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the conversion (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's invariant starts as the resting one and ends giving it back. -/
theorem Phi1_first (c : Dev nD) : Pipeline.ΦA spec1 c ⊢ (pdats m ρ 1 c).Φ 0 := hin1 (V2 m ρ) c
theorem Phi1_last (c : Dev nD) : (pdats m ρ 1 c).Φ (Fin.last _) ⊢ Pipeline.ΦA spec1 c := hout1 (V2 m ρ) c

theorem hin_shape1 (c : Dev nD) :
    iprop(iprop(∃ r, prngReg c r) ∗ Pipeline.prefHeld (pcfgs (F := F) 1).pre c (fun _ => fullShare) (adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp

theorem hout_shape1 (c : Dev nD) :
    (Pipeline.ΦA spec1 c : sProp 𝕄) ⊢ iprop(iprop(∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The attention region over the thread state: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hin_shape1 c).trans (Phi1_first m ρ c)
  hout c := by
    rw [Pipeline.ownSems0_none]
    exact (Phi1_last m ρ c).trans (hout_shape1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

/-- The result array ends at what the attention pipeline leaves in its output window's array. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.Kernel.Hand

end
-- ==== Proof.Region0.lean ====
/-
  The projection kernel, one grid point at a time.

  The grid has 8 points.  At point t the kernel is handed rows 512 t .. 512 t + 511 of x (a block of
  512 x 1024) and the three weight matrices whole, and it overwrites three output blocks of
  512 x 1024: the block of x wq scaled by the word of 1/32, the block of x wk, and the block of
  x wv (this one with bf16 operands and a bf16 result).  Each output block is written by ONE store
  of the whole block, so what it holds afterwards is a function of the input blocks alone.

  This module names those three functions, proves that the body run on buffers holding the input
  blocks leaves exactly them (and the inputs as they were), and states the per-point data of the
  pipeline: at every point each input buffer holds its block of the array found on entry (the
  weights are fetched at the first point only and are still there at the later ones), and each
  output buffer holds the function of the input blocks at that point.
-/
import proofs.«174663_j13460427505739_2_alg».proof.Proof.Gen.KernelIdeal.Launch
import proofs.«174663_j13460427505739_2_alg».proof.Proof.Gen.KernelIdeal.Skeleton
import proofs.«174663_j13460427505739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the projection region is entered
variable (V : (c : Dev nD) → (b : Ref sig .tc) → Buf (Elt F) ((c : Thread nD τ).loc b))

/-! ## The windows' blocks -/

/-- Window `w`'s block at point `t`, read off its array as found on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block of the entry array at every point, fetched there or not
    (a window not fetched at a point has the block index of the point before, so the block kept is this point's),
    for any per-point data whose array is the entry array and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block of the entry array at every point, fetched there or not
    (a window not fetched at a point has the block index of the point before, so the block kept is this point's),
    for any per-point data whose array is the entry array and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block of the entry array at every point, fetched there or not
    (a window not fetched at a point has the block index of the point before, so the block kept is this point's),
    for any per-point data whose array is the entry array and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block of the entry array at every point, fetched there or not
    (a window not fetched at a point has the block index of the point before, so the block kept is this point's),
    for any per-point data whose array is the entry array and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole of a 512 x 1024 buffer. -/
abbrev rBlock : Rect S512x1024 := Rect.unit (s := S512x1024) ![0, 0] S512x1024.size inb_S512x1024_S512x1024_0_0
/-- The whole of a 1024 x 1024 buffer. -/
abbrev rWeight : Rect S1024x1024 := Rect.unit (s := S1024x1024) ![0, 0] S1024x1024.size inb_S1024x1024_S1024x1024_0_0

/-! ## What the body leaves in each output buffer -/

/-- The scaled query block: the one store of (x wq) times the word of 1/32, from the x block and wq. -/
def out0_4 (x0 : Vec F S512x1024 .f32) (x1 : Vec F S1024x1024 .f32) : Vec F S512x1024 .f32 :=
  View.canon [⟨rBlock, k0_pay2 (View.ld x0 rBlock) (View.ld x1 rWeight)⟩]

/-- The key block: the one store of x wk, from the x block and wk. -/
def out0_5 (x0 : Vec F S512x1024 .f32) (x2 : Vec F S1024x1024 .f32) : Vec F S512x1024 .f32 :=
  View.canon [⟨rBlock, k0_pay1 (View.ld x0 rBlock) (View.ld x2 rWeight)⟩]

/-- The value block: the one store of x wv in bf16, from the x block and the bf16 wv. -/
def out0_6 (x0 : Vec F S512x1024 .f32) (x3 : Vec F S1024x1024 .bf16) : Vec F S512x1024 .bf16 :=
  View.canon [⟨rBlock, k0_pay3 (View.ld x0 rBlock) (View.ld x3 rWeight)⟩]

/-- One store of the whole block covers the block (f32). -/
theorem cover_f32 (p0 : Vec F S512x1024 .f32) (y : S512x1024.Idx) :
    ∃ pc ∈ ([⟨rBlock, p0⟩] : List (View.Piece (Elt F) S512x1024 .f32)), y ∈ pc.1.set :=
  View.cover_of_tiled [⟨rBlock, p0⟩] S512x1024.size (by rfl) y

/-- One store of the whole block covers the block (bf16). -/
theorem cover_bf16 (p0 : Vec F S512x1024 .bf16) (y : S512x1024.Idx) :
    ∃ pc ∈ ([⟨rBlock, p0⟩] : List (View.Piece (Elt F) S512x1024 .bf16)), y ∈ pc.1.set :=
  View.cover_of_tiled [⟨rBlock, p0⟩] S512x1024.size (by rfl) y

/-! ## The body's triple -/

set_option maxHeartbeats 1000000 in
/-- The body on whole buffers, the four inputs' at contents x0 .. x3 and the three outputs' at anything, runs to the
    continuation with the inputs as they were and the outputs at the three functions above. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole)
    (x0 : Vec F S512x1024 .f32) (x1 : Vec F S1024x1024 .f32) (x2 : Vec F S1024x1024 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__project_kernel i arg1 harg1 arg2 harg2 arg3 harg3 arg4 harg4 arg5 harg5 arg6 harg6 arg7 harg7) K := by
  simp only [cc0__project_kernel_eq_skeleton]; unfold cc0__project_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  isplitl [H6]
  · iexists _; isplitr
    swap; · iexact H6
    ipureintro
    exact View.read_writes_eq_canon _ _ _ (cover_f32 _)
  iexists _; isplitr
  swap; · iexact H7
  ipureintro
  exact View.read_writes_eq_canon _ _ _ (cover_bf16 _)

/-! ## The pipeline's per-point data -/

/-- The data of the projection pipeline on core `c`: the arrays as found on entry; after the body at point `t` each input
    buffer still at its block and each output buffer at its function of the input blocks; the invariant is the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Base.lean ====
/-
  The attention kernel (the second kernel region): what its runs are stated over.

  The region walks a grid of 4 x 8 points: query tile qi (1024 rows) against key tile ki (512 rows).
  Point t has ki = t mod 8.  At ki = 0 the body resets its three scratch buffers (running maximum,
  running denominator, running numerator); at every point it folds one key tile into them; at
  ki = 7 it also divides numerator by denominator into the output block, which is written back
  there and nowhere else.  Between points the scratch keeps what the point before left.
-/
import proofs.«174663_j13460427505739_2_alg».proof.Proof.Gen.KernelIdeal.Launch
import proofs.«174663_j13460427505739_2_alg».proof.Proof.Gen.KernelIdeal.Skeleton
import proofs.«174663_j13460427505739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the key block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the value block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions -/

/-- "This is the first key tile" (ki = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points with t mod 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile" (ki = 7). -/
abbrev cond1_1 (i : grid1.Coords) : Prop := k1_cond2 i = 1#1
/-- It holds at the points with t mod 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the body stores nothing into the output block, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- On the last key tile the body stores the output block. -/
theorem liveAt1_3 : ∀ t : Fin cfg1.N, cond1_1 (grid1.coords t) → cfg1.idle 3 (grid1.coords t) = false := by decide +kernel

/-! ## The staging and scratch memrefs -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The running maximum, the running denominator, the running numerator: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The other kernel's staging buffers, each whole at some contents: they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's resting invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.Region1RunA.lean ====
/-
  The attention kernel's body at a point of the FIRST key tile (ki = 0), run whole: the scratch
  buffers are reset (maximum to -inf, denominator and numerator to 0), the tile is folded in, and the
  output block is left as it was.  The pieces each scratch buffer ends with are found by the run.
-/
import proofs.«174663_j13460427505739_2_alg».proof.Proof.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output block at contents handed back untouched, the scratch at
    anything — the body at a first-key-tile point runs to the continuation holding the inputs as they were, the output block
    untouched, and each scratch buffer with its pieces written. -/
noncomputable def kernelRun1_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S512x1024 .f32) (x2 : Vec F S512x1024 .bf16) :
    Σ' (LS0 : List (View.Piece (Elt F) S1024x1 .f32)), Σ' (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.Region1RunB.lean ====
/-
  The attention kernel's body at a point of a MIDDLE key tile (0 < ki < 7), run whole: the tile is
  folded into the scratch buffers as the point before left them, and the output block is left as it was.
-/
import proofs.«174663_j13460427505739_2_alg».proof.Proof.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output block at contents handed back untouched, the scratch at
    what the point before left — the body at a middle point runs to the continuation holding the inputs as they were, the
    output block untouched, and each scratch buffer with its pieces written. -/
noncomputable def kernelRun1_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (LS0 : List (View.Piece (Elt F) S1024x1 .f32)), Σ' (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.Region1RunC.lean ====
/-
  The attention kernel's body at a point of the LAST key tile (ki = 7), run whole: the tile is folded
  into the scratch buffers as the point before left them, and numerator over denominator is stored into
  the output block.
-/
import proofs.«174663_j13460427505739_2_alg».proof.Proof.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output block at anything, the scratch at what the point before
    left — the body at a last-key-tile point runs to the continuation holding the inputs as they were, and the output block
    and each scratch buffer with their pieces written. -/
noncomputable def kernelRun1_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S512x1024 .f32) (x2 : Vec F S512x1024 .bf16) (xs0 : Vec F S1024x1 .f32) (xs1 : Vec F S1024x1 .f32) (xs2 : Vec F S1024x1024 .f32) :
    Σ' (L3 : List (View.Piece (Elt F) S1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Region1.lean ====
/-
  The attention kernel region, point by point.

  What the body leaves in the three scratch buffers (running maximum, denominator, numerator) and in
  the output block in each of its three cases — first key tile, middle key tile, last key tile — and
  the accumulation over the grid: at a first-key-tile point the scratch is rebuilt from the point's
  blocks alone, at every other point from the point's blocks and what the point before left.  The
  region's invariant carries the scratch at exactly those contents from one point to the next; with
  it the body meets the pipeline's obligation at every point.
-/
import proofs.«174663_j13460427505739_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a point of the grid -/

/-- The first-key-tile run at point t, on the point's memrefs and blocks. -/
def runA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)
/-- The middle run at point t, over the scratch contents p the point before left. -/
def runB (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2
/-- The last-key-tile run at point t, over the scratch contents p the point before left. -/
def runC (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2

/-- What a first-key-tile point leaves: (output block — untouched, a placeholder nothing reads —, maximum, denominator, numerator). -/
def leftA (c : Dev nD) (t : Fin cfg1.N) (hc0 : cond1_0 (grid1.coords t)) (hc1 : ¬cond1_1 (grid1.coords t)) : Vec F S1024x1024 .f32 × Vec F S1024x1 .f32 × Vec F S1024x1 .f32 × Vec F S1024x1024 .f32 :=
  (VO1_3.read (Elt F) (VO1_3.writes (Elt F) VO1_3.junk []), VS1_0.read (Elt F) (VS1_0.writes (Elt F) VS1_0.junk (runA V c t hc0 hc1).1), VS1_1.read (Elt F) (VS1_1.writes (Elt F) VS1_1.junk (runA V c t hc0 hc1).2.1), VS1_2.read (Elt F) (VS1_2.writes (Elt F) VS1_2.junk (runA V c t hc0 hc1).2.2.1))
/-- What a middle point leaves. -/
def leftB (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk []), VS1_0.read (Elt F) (VS1_0.writes (Elt F) VS1_0.junk (runB V c t hc0 hc1 p).1), VS1_1.read (Elt F) (VS1_1.writes (Elt F) VS1_1.junk (runB V c t hc0 hc1 p).2.1), VS1_2.read (Elt F) (VS1_2.writes (Elt F) VS1_2.junk (runB V c t hc0 hc1 p).2.2.1))
/-- What a last-key-tile point leaves: the output block stored, too. -/
def leftC (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) : Vec F S1024x1024 .f32 × Vec F S1024x1 .f32 × Vec F S1024x1 .f32 × Vec F S1024x1024 .f32 :=
  (VO1_3.read (Elt F) (VO1_3.writes (Elt F) VO1_3.junk (runC V c t hc0 hc1 p).1), VS1_0.read (Elt F) (VS1_0.writes (Elt F) VS1_0.junk (runC V c t hc0 hc1 p).2.1), VS1_1.read (Elt F) (VS1_1.writes (Elt F) VS1_1.junk (runC V c t hc0 hc1 p).2.2.1), VS1_2.read (Elt F) (VS1_2.writes (Elt F) VS1_2.junk (runC V c t hc0 hc1 p).2.2.2.1))

/-! ## Each case's stores cover the buffers they leave -/
theorem coverA_0 (c : Dev nD) (t : Fin cfg1.N) (hc0 : cond1_0 (grid1.coords t)) (hc1 : ¬cond1_1 (grid1.coords t)) (y : S1024x1.Idx) :
    ∃ pc ∈ (runA V c t hc0 hc1).1, y ∈ pc.1.set :=
  View.cover_of_tiledL (runA V c t hc0 hc1).1 S1024x1.size (by sl_kernel_rfl) y
theorem coverA_1 (c : Dev nD) (t : Fin cfg1.N) (hc0 : cond1_0 (grid1.coords t)) (hc1 : ¬cond1_1 (grid1.coords t)) (y : S1024x1.Idx) :
    ∃ pc ∈ (runA V c t hc0 hc1).2.1, y ∈ pc.1.set :=
  View.cover_of_tiledL (runA V c t hc0 hc1).2.1 S1024x1.size (by sl_kernel_rfl) y
theorem coverA_2 (c : Dev nD) (t : Fin cfg1.N) (hc0 : cond1_0 (grid1.coords t)) (hc1 : ¬cond1_1 (grid1.coords t)) (y : S1024x1024.Idx) :
    ∃ pc ∈ (runA V c t hc0 hc1).2.2.1, y ∈ pc.1.set :=
  View.cover_of_tiledL (runA V c t hc0 hc1).2.2.1 S1024x1024.size (by sl_kernel_rfl) y
theorem coverB_0 (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) (y : S1024x1.Idx) :
    ∃ pc ∈ (runB V c t hc0 hc1 p).1, y ∈ pc.1.set :=
  View.cover_of_tiledL (runB V c t hc0 hc1 p).1 S1024x1.size (by sl_kernel_rfl) y
theorem coverB_1 (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) (y : S1024x1.Idx) :
    ∃ pc ∈ (runB V c t hc0 hc1 p).2.1, y ∈ pc.1.set :=
  View.cover_of_tiledL (runB V c t hc0 hc1 p).2.1 S1024x1.size (by sl_kernel_rfl) y
theorem coverB_2 (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) (y : S1024x1024.Idx) :
    ∃ pc ∈ (runB V c t hc0 hc1 p).2.2.1, y ∈ pc.1.set :=
  View.cover_of_tiledL (runB V c t hc0 hc1 p).2.2.1 S1024x1024.size (by sl_kernel_rfl) y
theorem coverC_0 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1.Idx) :
    ∃ pc ∈ (runC V c t hc0 hc1 p).2.1, y ∈ pc.1.set :=
  View.cover_of_tiledL (runC V c t hc0 hc1 p).2.1 S1024x1.size (by sl_kernel_rfl) y
theorem coverC_1 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1.Idx) :
    ∃ pc ∈ (runC V c t hc0 hc1 p).2.2.1, y ∈ pc.1.set :=
  View.cover_of_tiledL (runC V c t hc0 hc1 p).2.2.1 S1024x1.size (by sl_kernel_rfl) y
theorem coverC_2 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1024.Idx) :
    ∃ pc ∈ (runC V c t hc0 hc1 p).2.2.2.1, y ∈ pc.1.set :=
  View.cover_of_tiledL (runC V c t hc0 hc1 p).2.2.2.1 S1024x1024.size (by sl_kernel_rfl) y
theorem coverC_3 (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) (y : S1024x1024.Idx) :
    ∃ pc ∈ (runC V c t hc0 hc1 p).1, y ∈ pc.1.set :=
  View.cover_of_tiledL (runC V c t hc0 hc1 p).1 S1024x1024.size (by sl_kernel_rfl) y

/-! ## What the buffers hold after each point -/

/-- The accumulation: what the output block and the three scratch buffers hold after the body at position n. -/
def outsAt1 (c : Dev nD) : (n : ℕ) → n < cfg1.N → Vec F S1024x1024 .f32 × Vec F S1024x1 .f32 × Vec F S1024x1 .f32 × Vec F S1024x1024 .f32
  | 0, hn => leftA V c ⟨0, hn⟩ ((hcond1_0 ⟨0, hn⟩).mpr (Nat.zero_mod _)) (fun h => by have h' := (hcond1_1 ⟨0, hn⟩).mp h; (try dsimp only at h'); omega)
  | n + 1, hn =>
    if h0 : (n + 1) % 8 = 0 then
      leftA V c ⟨n + 1, hn⟩ ((hcond1_0 ⟨n + 1, hn⟩).mpr h0) (fun h => by have h' := (hcond1_1 ⟨n + 1, hn⟩).mp h; (try dsimp only at h'); omega)
    else if h1 : (n + 1) % 8 = 7 then
      leftC V c ⟨n + 1, hn⟩ (fun h => h0 ((hcond1_0 ⟨n + 1, hn⟩).mp h)) ((hcond1_1 ⟨n + 1, hn⟩).mpr h1) (outsAt1 c n (Nat.lt_of_succ_lt hn))
    else
      leftB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (hc0 : cond1_0 (grid1.coords t)) (hc1 : ¬cond1_1 (grid1.coords t)) :
    outsAt1 V c t.val t.isLt = leftA V c t hc0 hc1 := by
  obtain ⟨n, hn⟩ := t
  cases n with
  | zero => rfl
  | succ n => exact dif_pos h0

theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt = leftB V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt = leftC V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- Before position n: at the start the resting invariant (every scoped buffer at anything); afterwards the three scratch
    buffers at what the point before left, the other kernel's staging buffers at anything, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ others1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ others1 c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ others1 c) ∗ (∃ r, prngReg c r)) := by
  cases n with
  | zero => exact absurd rfl hz
  | succ n => rfl

/-- The resting invariant, sorted: the scratch at anything, the other kernel's staging buffers, the generator register. -/
theorem PhiA1_split (c : Dev nD) :
    (Pipeline.ΦA spec1 c : sProp 𝕄) ⊢ iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
  rw [PhiA1_eq]; unfold others1
  iintro ⟨⟨B1, B2, B3, B4, B5, B6, B7, B8, B9, B10, B11, HS0, HS1, HS2⟩, Hg⟩
  isplitr [Hg]
  · isplitl [HS0]; · iexact HS0
    isplitl [HS1]; · iexact HS1
    isplitl [HS2]; · iexact HS2
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  · iexact Hg

/-- and put back. -/
theorem PhiA1_join (c : Dev nD) :
    iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) ⊢ (Pipeline.ΦA spec1 c : sProp 𝕄) := by
  rw [PhiA1_eq]; unfold others1
  iintro ⟨⟨HS0, HS1, HS2, B1, B2, B3, B4, B5, B6, B7, B8, B9, B10, B11⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [HS0]; · iexact HS0
    isplitl [HS1]; · iexact HS1
    iexact HS2
  · iexact Hg

/-! ## The pipeline's proof data -/

/-- The proof data of the attention pipeline on core c: the arrays as the region finds them; after the body at point t the
    inputs' buffers at their blocks and the output's at the accumulation's first component; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- Scratch contents forgotten: owned at named contents is owned at some contents. -/
theorem forget1 (c : Dev nD) (a b : Vec F S1024x1 .f32) (e : Vec F S1024x1024 .f32) :
    iprop(iprop(owns (c : Thread nD τ) scM1_0 fullShare a ∗ owns (c : Thread nD τ) scM1_1 fullShare b ∗ owns (c : Thread nD τ) scM1_2 fullShare e ∗ others1 c) ∗ (∃ r, prngReg c r))
      ⊢ (iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) : sProp 𝕄) := by
  iintro ⟨⟨HS0, HS1, HS2, Ho⟩, Hg⟩
  isplitr [Hg]
  · isplitl [HS0]; · iexists _; iexact HS0
    isplitl [HS1]; · iexists _; iexact HS1
    isplitl [HS2]; · iexists _; iexact HS2
    iexact Ho
  · iexact Hg

/-- After any point but the first the invariant gives the resting invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  exact (forget1 c _ _ _).trans (PhiA1_join c)

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.Region1Body.lean ====
/-
  The attention kernel meets the pipeline's obligation at every point of its grid.

  At a point the body is handed the invariant (the scratch at what the point before left, or at
  anything before the first point), the three input blocks in their staging buffers and the output's
  staging buffer.  The point's key tile index decides the case; the case's run takes the scratch in
  and gives it back at the accumulation's next value; off the last key tile the output's buffer goes
  back untouched, on it with numerator over denominator stored.
-/
import proofs.«174663_j13460427505739_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 32 := lt_of_lt_of_eq t.isLt (show cfg1.N = 32 from N_1)
  by_cases h0 : t.val % 8 = 0
  · have hc0 : cond1_0 (grid1.coords t) := (hcond1_0 t).mpr h0
    have hc1 : ¬cond1_1 (grid1.coords t) := fun h => by have h' := (hcond1_1 t).mp h; omega
    rw [Dat.leavesExact_idle (dat1 V c) 3 t (idleAt1_3 t hc1) (noFlush1_3 t hc1)]
    rw [outsAt1_A V c t h0 hc0 hc1]
    unfold leftA; (try dsimp only)
    by_cases hz : t.val = 0
    · rw [PhiS_castSucc V c t, PhiS_zero V c _ _ hz]
      · iintro ⟨HΦ, Ho, ⟨%d0, H0⟩, ⟨%d1, H1⟩, ⟨%d2, H2⟩, ⟨%d3, H3⟩⟩
        ihave HΦ' := (PhiA1_split (F := F) c) $$ HΦ
        icases HΦ' with ⟨⟨HS0, HS1, HS2, Hoth⟩, Hg⟩
        iapply ((runA V c t hc0 hc1).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverA_0 V c t hc0 hc1)
          isplitl [HS1]
          · unfold owns; iexists _; isplitr
            swap; · iexact HS1
            ipureintro; exact View.read_writes_of_cover _ _ _ _ _ (coverA_1 V c t hc0 hc1)
          isplitl [HS2]
          · unfold owns; iexists _; isplitr
            swap; · iexact HS2
            ipureintro; exact View.read_writes_of_cover _ _ _ _ _ (coverA_2 V c t hc0 hc1)
          iexact Hoth
        isplitl [Ho]; · iexact Ho
        isplitl [H0]; · iexact H0
        isplitl [H1]; · iexact H1
        isplitl [H2]; · iexact H2
        iexists _; iexact H3
    · rw [PhiS_castSucc V c t, PhiS_pos V c _ _ hz]
      · iintro ⟨⟨⟨HS0, HS1, HS2, Hoth⟩, Hg⟩, Ho, ⟨%d0, H0⟩, ⟨%d1, H1⟩, ⟨%d2, H2⟩, ⟨%d3, H3⟩⟩
        iapply ((runA V c t hc0 hc1).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverA_0 V c t hc0 hc1)
          isplitl [HS1]
          · unfold owns; iexists _; isplitr
            swap; · iexact HS1
            ipureintro; exact View.read_writes_of_cover _ _ _ _ _ (coverA_1 V c t hc0 hc1)
          isplitl [HS2]
          · unfold owns; iexists _; isplitr
            swap; · iexact HS2
            ipureintro; exact View.read_writes_of_cover _ _ _ _ _ (coverA_2 V c t hc0 hc1)
          iexact Hoth
        isplitl [Ho]; · iexact Ho
        isplitl [H0]; · iexact H0
        isplitl [H1]; · iexact H1
        isplitl [H2]; · iexact H2
        iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1 hc0 hc1]
      unfold leftC; (try dsimp only)
      rw [PhiS_castSucc V c t, PhiS_pos V c _ _ hz]
      · iintro ⟨⟨⟨HS0, HS1, HS2, Hoth⟩, Hg⟩, Ho, ⟨%d0, H0⟩, ⟨%d1, H1⟩, ⟨%d2, H2⟩, ⟨%d3, H3⟩⟩
        iapply ((runC V c t hc0 hc1 _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverC_0 V c t hc0 hc1 _)
          isplitl [HS1]
          · unfold owns; iexists _; isplitr
            swap; · iexact HS1
            ipureintro; exact View.read_writes_of_cover _ _ _ _ _ (coverC_1 V c t hc0 hc1 _)
          isplitl [HS2]
          · unfold owns; iexists _; isplitr
            swap; · iexact HS2
            ipureintro; exact View.read_writes_of_cover _ _ _ _ _ (coverC_2 V c t hc0 hc1 _)
          iexact Hoth
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverC_3 V c t hc0 hc1 _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1 hc0 hc1]
      unfold leftB; (try dsimp only)
      rw [PhiS_castSucc V c t, PhiS_pos V c _ _ hz]
      · iintro ⟨⟨⟨HS0, HS1, HS2, Hoth⟩, Hg⟩, Ho, ⟨%d0, H0⟩, ⟨%d1, H1⟩, ⟨%d2, H2⟩, ⟨%d3, H3⟩⟩
        iapply ((runB V c t hc0 hc1 _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [HS0 HS1 HS2 Hoth Hg]
        · isplitr [Hg]
          swap; · iexact Hg
          isplitl [HS0]
          · unfold owns; iexists _; isplitr
            swap; · iexact HS0
            ipureintro; exact View.read_writes_of_cover _ _ _ _ _ (coverB_0 V c t hc0 hc1 _)
          isplitl [HS1]
          · unfold owns; iexists _; isplitr
            swap; · iexact HS1
            ipureintro; exact View.read_writes_of_cover _ _ _ _ _ (coverB_1 V c t hc0 hc1 _)
          isplitl [HS2]
          · unfold owns; iexists _; isplitr
            swap; · iexact HS2
            ipureintro; exact View.read_writes_of_cover _ _ _ _ _ (coverB_2 V c t hc0 hc1 _)
          iexact Hoth
        isplitl [Ho]; · iexact Ho
        isplitl [H0]; · iexact H0
        isplitl [H1]; · iexact H1
        isplitl [H2]; · iexact H2
        iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program, run: a conversion of the value weights to the shorter float format, the
  projection kernel, the attention kernel.

  Core c's buffers at each boundary: as launched; after the conversion; after the projection
  region (its three output arrays at what its write-backs leave, everything else as before); after
  the attention region (its output array likewise).  Every weakly fair execution terminates with
  every unscoped buffer at the last of these; the four argument arrays are written by nothing, so
  they read back as launched.
-/
import proofs.«174663_j13460427505739_2_alg».proof.Proof.Region0
import proofs.«174663_j13460427505739_2_alg».proof.Proof.Region1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the conversion (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's invariant starts as the resting one and ends giving it back. -/
theorem Phi1_first (c : Dev nD) : Pipeline.ΦA spec1 c ⊢ (pdats m ρ 1 c).Φ 0 := hin1 (V2 m ρ) c
theorem Phi1_last (c : Dev nD) : (pdats m ρ 1 c).Φ (Fin.last _) ⊢ Pipeline.ΦA spec1 c := hout1 (V2 m ρ) c

theorem hin_shape1 (c : Dev nD) :
    iprop(iprop(∃ r, prngReg c r) ∗ Pipeline.prefHeld (pcfgs (F := F) 1).pre c (fun _ => fullShare) (adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp

theorem hout_shape1 (c : Dev nD) :
    (Pipeline.ΦA spec1 c : sProp 𝕄) ⊢ iprop(iprop(∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The attention region over the thread state: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hin_shape1 c).trans (Phi1_first m ρ c)
  hout c := by
    rw [Pipeline.ownSems0_none]
    exact (Phi1_last m ρ c).trans (hout_shape1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

/-- The result array ends at what the attention pipeline leaves in its output window's array. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.KernelIdeal.Hand

end
-- ==== Proof.LibOnlineSoftmax.lean ====
import Idealize.ShloMosaic.PureOps.Ideal

/-!
# Softmax-weighted averaging: the running (tile-by-tile) form equals the whole-row form

A row of scores is cut into `T` tiles of `W` columns. The whole-row form takes the maximum `M` of
the row, the weights `e = exp (S - M)`, their sum `L`, and returns `∑ (e / L) * V`. The running form
visits the tiles `0, 1, …, J` keeping a running maximum `m`, a running denominator `l` and a running
numerator `a`; at each tile the old `l` and `a` are rescaled by `exp (m - m')` to the new maximum
`m'` before the tile's weights `exp (S - m')` are added; it returns `a / l`.

All values are extended reals; a masked score is `⊥`, whose weight is `exp ⊥ = 0`. The proof
carries the invariant "after tile `n` the maximum is a real `μ`, and `l`, `a` are the REAL sums of
`exp (S - μ)` and `exp (S - μ) * V` over the entries seen"; the step is the real identity
`exp (μ - μ') * exp (x - μ) = exp (x - μ')`. The two maxima agree because they have the same upper
bounds, and the division distributes over the sum because the denominator is a positive real.

Main statements: `onlineOut_eq_refOut` (general), `onlineOut_tiles_eq_refOut` (the running form
reads the same arrays), `onlineOut_eq_refOut_of_mask` (scores given by a mask and real scores).
-/

open scoped BigOperators
open Idealize.ShloMosaic

namespace OnlineSoftmax

noncomputable section

/-- One step of the running (tile-by-tile) form on the tile with scores `s` and values `v`,
    from the state `(m, l, a)` = (running maximum, running denominator, running numerator). -/
def step {W : ℕ} (s v : Fin W → EReal) (st : EReal × EReal × EReal) : EReal × EReal × EReal :=
  (max st.1 ((Finset.univ : Finset (Fin W)).fold max ⊥ s),
   Ideal.exp (st.1 - max st.1 ((Finset.univ : Finset (Fin W)).fold max ⊥ s)) * st.2.1
     + ∑ c : Fin W, Ideal.exp (s c - max st.1 ((Finset.univ : Finset (Fin W)).fold max ⊥ s)),
   Ideal.exp (st.1 - max st.1 ((Finset.univ : Finset (Fin W)).fold max ⊥ s)) * st.2.2
     + ∑ c : Fin W, Ideal.exp (s c - max st.1 ((Finset.univ : Finset (Fin W)).fold max ⊥ s)) * v c)

/-- The state after the first `n` tiles, from `(⊥, 0, 0)`. -/
def run {W : ℕ} (s v : ℕ → Fin W → EReal) : ℕ → EReal × EReal × EReal
  | 0 => (⊥, 0, 0)
  | n + 1 => step (s n) (v n) (run s v n)

/-- The weight `exp (x - μ)` of a score `x` against a real maximum `μ`, as a real number
    (`0` for the masked score `⊥`). -/
def wt (x : EReal) (μ : ℝ) : ℝ := (Ideal.exp (x - (μ : EReal))).toReal

/-- Against a real maximum, the exponential of a score that is not `⊤` is the real weight. -/
theorem exp_sub_coe {x : EReal} (hx : x ≠ ⊤) (μ : ℝ) :
    Ideal.exp (x - (μ : EReal)) = ((wt x μ : ℝ) : EReal) := by
  induction x using EReal.rec with
  | bot => simp [wt]
  | coe r => simp [wt, ← EReal.coe_sub]
  | top => exact absurd rfl hx

/-- Changing the maximum from `μ` to `μ'` rescales a weight by `exp (μ - μ')`. -/
theorem wt_shift {x : EReal} (hx : x ≠ ⊤) (μ μ' : ℝ) :
    Real.exp (μ - μ') * wt x μ = wt x μ' := by
  induction x using EReal.rec with
  | bot => simp [wt]
  | coe r =>
    simp only [wt, ← EReal.coe_sub, Ideal.exp_coe, EReal.toReal_coe]
    rw [← Real.exp_add]; congr 1; ring
  | top => exact absurd rfl hx

/-- A weight is nonnegative. -/
theorem wt_nonneg (x : EReal) (μ : ℝ) : 0 ≤ wt x μ := by
  induction x using EReal.rec with
  | bot => simp [wt]
  | coe r => simp only [wt, ← EReal.coe_sub, Ideal.exp_coe, EReal.toReal_coe]; exact (Real.exp_pos _).le
  | top => simp [wt]

/-- The weight of a real score is positive. -/
theorem wt_pos {x : EReal} (hb : x ≠ ⊥) (ht : x ≠ ⊤) (μ : ℝ) : 0 < wt x μ := by
  induction x using EReal.rec with
  | bot => exact absurd rfl hb
  | coe r => simp only [wt, ← EReal.coe_sub, Ideal.exp_coe, EReal.toReal_coe]; exact Real.exp_pos _
  | top => exact absurd rfl ht

/-- The coercion `ℝ → EReal` commutes with a finite sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- A row maximum of scores none of which is `⊤` is not `⊤`. -/
theorem fold_ne_top {W : ℕ} {s : Fin W → EReal} (hs : ∀ c, s c ≠ ⊤) :
    (Finset.univ : Finset (Fin W)).fold max ⊥ s ≠ ⊤ := by
  rw [← lt_top_iff_ne_top, Finset.fold_max_lt]
  exact ⟨bot_lt_top, fun c _ => lt_top_iff_ne_top.2 (hs c)⟩

/-- A row maximum with one score that is not `⊥` is not `⊥`. -/
theorem fold_ne_bot {W : ℕ} {s : Fin W → EReal} {c₀ : Fin W} (h : s c₀ ≠ ⊥) :
    (Finset.univ : Finset (Fin W)).fold max ⊥ s ≠ ⊥ := by
  rw [← bot_lt_iff_ne_bot, Finset.lt_fold_max]
  exact Or.inr ⟨c₀, Finset.mem_univ _, bot_lt_iff_ne_bot.2 h⟩

/-- One step on real data: if the new maximum is the real `μ'`, the rescaling factor is the
    real `αr`, and the old denominator and numerator are the reals `Lr`, `Ar`, then the new
    denominator and numerator are the reals `αr * Lr + ∑ wt` and `αr * Ar + ∑ wt * v`. -/
theorem step_coe {W : ℕ} (s v : Fin W → EReal) (hs : ∀ c, s c ≠ ⊤)
    (hv : ∀ c, v c = (((v c).toReal : ℝ) : EReal)) (m : EReal) (Lr Ar αr μ' : ℝ)
    (hm : max m ((Finset.univ : Finset (Fin W)).fold max ⊥ s) = (μ' : EReal))
    (hα : Ideal.exp (m - (μ' : EReal)) = (αr : EReal)) :
    step s v (m, (Lr : EReal), (Ar : EReal)) =
      ((μ' : EReal), ((αr * Lr + ∑ c, wt (s c) μ' : ℝ) : EReal),
        ((αr * Ar + ∑ c, wt (s c) μ' * (v c).toReal : ℝ) : EReal)) := by
  have h1 : ∀ c, Ideal.exp (s c - (μ' : EReal)) = ((wt (s c) μ' : ℝ) : EReal) :=
    fun c => exp_sub_coe (hs c) μ'
  have h2 : ∀ c, Ideal.exp (s c - (μ' : EReal)) * v c
      = ((wt (s c) μ' * (v c).toReal : ℝ) : EReal) := fun c => by
    rw [h1, EReal.coe_mul, ← hv c]
  simp only [step, hm, hα]
  rw [Finset.sum_congr rfl (fun c _ => h2 c), Finset.sum_congr rfl (fun c _ => h1 c),
    coe_sum, coe_sum, ← EReal.coe_mul, ← EReal.coe_mul, ← EReal.coe_add, ← EReal.coe_add]

/-- The invariant of the running form: after the tiles `0 … n` (`n ≤ J`) the running maximum is a
    real `μ`, and the running denominator and numerator are the real sums of `exp (s - μ)` and
    of `exp (s - μ) * v` over the entries seen. -/
theorem run_inv {W : ℕ} (s v : ℕ → Fin W → EReal) (J : ℕ)
    (hs : ∀ j ≤ J, ∀ c, s j c ≠ ⊤) (h0 : ∃ c₀, s 0 c₀ ≠ ⊥)
    (hv : ∀ j ≤ J, ∀ c, v j c = (((v j c).toReal : ℝ) : EReal)) :
    ∀ n, n ≤ J → ∃ μ : ℝ, run s v (n + 1) =
      ((μ : EReal), ((∑ j ∈ Finset.range (n + 1), ∑ c, wt (s j c) μ : ℝ) : EReal),
        ((∑ j ∈ Finset.range (n + 1), ∑ c, wt (s j c) μ * (v j c).toReal : ℝ) : EReal)) := by
  intro n
  induction n with
  | zero =>
    intro _
    obtain ⟨c₀, hc₀⟩ := h0
    have hs0 := hs 0 (Nat.zero_le _)
    have hne_top := fold_ne_top hs0
    have hne_bot := fold_ne_bot hc₀
    refine ⟨((Finset.univ : Finset (Fin W)).fold max ⊥ (s 0)).toReal, ?_⟩
    have hm : max ⊥ ((Finset.univ : Finset (Fin W)).fold max ⊥ (s 0))
        = ((((Finset.univ : Finset (Fin W)).fold max ⊥ (s 0)).toReal : ℝ) : EReal) := by
      rw [max_eq_right bot_le, EReal.coe_toReal hne_top hne_bot]
    have hα : Ideal.exp (⊥ - ((((Finset.univ : Finset (Fin W)).fold max ⊥ (s 0)).toReal : ℝ) : EReal))
        = ((0 : ℝ) : EReal) := by
      rw [EReal.bot_sub, Ideal.exp_bot, EReal.coe_zero]
    have := step_coe (s 0) (v 0) hs0 (hv 0 (Nat.zero_le _)) ⊥ 0 0 0 _ hm hα
    show step (s 0) (v 0) (⊥, 0, 0) = _
    rw [show ((⊥, 0, 0) : EReal × EReal × EReal) = (⊥, ((0 : ℝ) : EReal), ((0 : ℝ) : EReal)) from rfl,
      this]
    simp
  | succ n ih =>
    intro hn
    obtain ⟨μ, hμ⟩ := ih (Nat.le_of_succ_le hn)
    have hsn := hs (n + 1) hn
    have hne_top : max (μ : EReal) ((Finset.univ : Finset (Fin W)).fold max ⊥ (s (n + 1))) ≠ ⊤ := by
      rw [← lt_top_iff_ne_top, max_lt_iff]
      exact ⟨EReal.coe_lt_top μ, lt_top_iff_ne_top.2 (fold_ne_top hsn)⟩
    have hne_bot : max (μ : EReal) ((Finset.univ : Finset (Fin W)).fold max ⊥ (s (n + 1))) ≠ ⊥ := by
      rw [← bot_lt_iff_ne_bot, lt_max_iff]
      exact Or.inl (EReal.bot_lt_coe μ)
    obtain ⟨μ', hm⟩ : ∃ μ' : ℝ,
        max (μ : EReal) ((Finset.univ : Finset (Fin W)).fold max ⊥ (s (n + 1))) = (μ' : EReal) :=
      ⟨_, (EReal.coe_toReal hne_top hne_bot).symm⟩
    have hα : Ideal.exp ((μ : EReal) - (μ' : EReal)) = ((Real.exp (μ - μ') : ℝ) : EReal) := by
      rw [← EReal.coe_sub, Ideal.exp_coe]
    refine ⟨μ', ?_⟩
    have key : ∀ j ∈ Finset.range (n + 1), ∀ c, Real.exp (μ - μ') * wt (s j c) μ = wt (s j c) μ' :=
      fun j hj c => wt_shift (hs j (by have := Finset.mem_range.1 hj; omega) c) μ μ'
    have e1 : Real.exp (μ - μ') * ∑ j ∈ Finset.range (n + 1), ∑ c, wt (s j c) μ
        = ∑ j ∈ Finset.range (n + 1), ∑ c, wt (s j c) μ' := by
      rw [Finset.mul_sum]
      refine Finset.sum_congr rfl fun j hj => ?_
      rw [Finset.mul_sum]
      exact Finset.sum_congr rfl fun c _ => key j hj c
    have e2 : Real.exp (μ - μ') * ∑ j ∈ Finset.range (n + 1), ∑ c, wt (s j c) μ * (v j c).toReal
        = ∑ j ∈ Finset.range (n + 1), ∑ c, wt (s j c) μ' * (v j c).toReal := by
      rw [Finset.mul_sum]
      refine Finset.sum_congr rfl fun j hj => ?_
      rw [Finset.mul_sum]
      exact Finset.sum_congr rfl fun c _ => by rw [← mul_assoc, key j hj c]
    have r1 := Finset.sum_range_succ (fun j => ∑ c, wt (s j c) μ') (n + 1)
    have r2 := Finset.sum_range_succ (fun j => ∑ c, wt (s j c) μ' * (v j c).toReal) (n + 1)
    show step (s (n + 1)) (v (n + 1)) (run s v (n + 1)) = _
    rw [hμ, step_coe _ _ hsn (hv _ hn) _ _ _ _ _ hm hα, e1, e2, r1, r2]

/-- The running maximum after `n` tiles is the least upper bound of the entries seen. -/
theorem run_max_le {W : ℕ} (s v : ℕ → Fin W → EReal) (n : ℕ) (x : EReal) :
    (run s v n).1 ≤ x ↔ ∀ j < n, ∀ c, s j c ≤ x := by
  induction n with
  | zero => simp [run]
  | succ n ih =>
    show max (run s v n).1 ((Finset.univ : Finset (Fin W)).fold max ⊥ (s n)) ≤ x ↔ _
    rw [max_le_iff, ih, Finset.fold_max_le]
    constructor
    · rintro ⟨h1, _, h2⟩ j hj c
      rcases Nat.lt_succ_iff_lt_or_eq.1 hj with h | rfl
      · exact h1 j h c
      · exact h2 c (Finset.mem_univ _)
    · intro h
      exact ⟨fun j hj c => h j (Nat.lt_succ_of_lt hj) c, bot_le,
        fun c _ => h n (Nat.lt_succ_self n) c⟩

/-- The whole-row maximum: the maximum over the tiles `j` of the tile maxima (each a fold of `max`
    from `⊥` over the columns `c` of tile `j`), joined with the reduction's initial value `⊥`. -/
def refMax {T W : ℕ} (S : Fin T → Fin W → EReal) : EReal :=
  max ⊥ ((Finset.univ : Finset (Fin T)).fold max ⊥
    fun j => (Finset.univ : Finset (Fin W)).fold max ⊥ (S j))

/-- The whole-row denominator `0 + ∑ j, ∑ c, exp (S j c - M)`. -/
def refDen {T W : ℕ} (S : Fin T → Fin W → EReal) : EReal :=
  0 + ∑ j : Fin T, ∑ c : Fin W, Ideal.exp (S j c - refMax S)

/-- The whole-row softmax-weighted average `0 + ∑ j, ∑ c, (exp (S j c - M) / L) * V j c`. -/
def refOut {T W : ℕ} (S V : Fin T → Fin W → EReal) : EReal :=
  0 + ∑ j : Fin T, ∑ c : Fin W, Ideal.div (Ideal.exp (S j c - refMax S)) (refDen S) * V j c

/-- The output of the running form after `n` tiles: numerator over denominator. -/
def onlineOut {W : ℕ} (s v : ℕ → Fin W → EReal) (n : ℕ) : EReal :=
  Ideal.div (run s v n).2.2 (run s v n).2.1

/-- The whole-row maximum is the least upper bound of all entries. -/
theorem refMax_le {T W : ℕ} (S : Fin T → Fin W → EReal) (x : EReal) :
    refMax S ≤ x ↔ ∀ j c, S j c ≤ x := by
  unfold refMax
  rw [max_le_iff, Finset.fold_max_le]
  constructor
  · rintro ⟨_, _, h⟩ j c
    exact ((Finset.fold_max_le x).1 (h j (Finset.mem_univ _))).2 c (Finset.mem_univ _)
  · intro h
    exact ⟨bot_le, bot_le, fun j _ => (Finset.fold_max_le x).2 ⟨bot_le, fun c _ => h j c⟩⟩

/-- A sum over all `T` tiles whose terms vanish beyond tile `J` is the sum over the tiles `0 … J`. -/
theorem sum_fin_eq_sum_range {T J : ℕ} (hJ : J < T) (f : Fin T → ℝ) (g : ℕ → ℝ)
    (hfg : ∀ j : Fin T, (j : ℕ) ≤ J → f j = g j) (hf0 : ∀ j : Fin T, J < (j : ℕ) → f j = 0) :
    ∑ j : Fin T, f j = ∑ j ∈ Finset.range (J + 1), g j := by
  have h1 : ∀ j : Fin T, f j = if (j : ℕ) ≤ J then g j else 0 := fun j => by
    by_cases h : (j : ℕ) ≤ J
    · rw [if_pos h]; exact hfg j h
    · rw [if_neg h]; exact hf0 j (Nat.lt_of_not_le h)
  rw [Finset.sum_congr rfl (fun j _ => h1 j),
    Fin.sum_univ_eq_sum_range (fun n => if n ≤ J then g n else 0) T,
    ← Finset.sum_subset (Finset.range_mono (Nat.succ_le_of_lt hJ))
      (fun n _ hn => if_neg (fun h => hn (Finset.mem_range.2 (Nat.lt_succ_of_le h))))]
  exact Finset.sum_congr rfl fun n hn => if_pos (Nat.lt_succ_iff.1 (Finset.mem_range.1 hn))

/-- **The running form equals the whole-row form.** `S`, `V` are the scores and values of all `T`
    tiles (what the whole-row form reads); `s`, `v` are the tiles as the running form reads them,
    equal to `S`, `V` on the processed tiles `0 … J`. The processed scores are never `⊤`, one score of
    tile `0` is not `⊥`, the processed values are real, and the scores of the skipped tiles `j > J` are
    `⊥`. Then numerator over denominator after the tiles `0 … J` is the softmax-weighted average over
    the whole row. -/
theorem onlineOut_eq_refOut {T W : ℕ} (J : ℕ) (hJ : J < T)
    (S V : Fin T → Fin W → EReal) (s v : ℕ → Fin W → EReal)
    (hsS : ∀ j : Fin T, (j : ℕ) ≤ J → ∀ c, S j c = s j c)
    (hvV : ∀ j : Fin T, (j : ℕ) ≤ J → ∀ c, V j c = v j c)
    (hfut : ∀ j : Fin T, J < (j : ℕ) → ∀ c, S j c = ⊥)
    (hs : ∀ j ≤ J, ∀ c, s j c ≠ ⊤)
    (h0 : ∃ c₀, s 0 c₀ ≠ ⊥)
    (hv : ∀ j ≤ J, ∀ c, ∃ r : ℝ, v j c = (r : EReal)) :
    onlineOut s v (J + 1) = refOut S V := by
  have hv' : ∀ j ≤ J, ∀ c, v j c = (((v j c).toReal : ℝ) : EReal) := fun j hj c => by
    obtain ⟨r, hr⟩ := hv j hj c
    rw [hr, EReal.toReal_coe]
  obtain ⟨μ, hμ⟩ := run_inv s v J hs h0 hv' J le_rfl
  -- every score of the whole row is below `⊤`
  have hS : ∀ j c, S j c ≠ ⊤ := fun j c => by
    by_cases h : (j : ℕ) ≤ J
    · rw [hsS j h c]; exact hs j h c
    · rw [hfut j (Nat.lt_of_not_le h) c]; exact bot_ne_top
  -- the whole-row maximum is the running maximum
  have hM : refMax S = (μ : EReal) := by
    have hm : (run s v (J + 1)).1 = (μ : EReal) := by rw [hμ]
    rw [← hm]
    refine eq_of_forall_ge_iff fun x => ?_
    rw [refMax_le, run_max_le]
    constructor
    · intro h j hj c
      have hjT : j < T := lt_of_lt_of_le hj (Nat.succ_le_of_lt hJ)
      have := h ⟨j, hjT⟩ c
      rwa [hsS ⟨j, hjT⟩ (Nat.lt_succ_iff.1 hj) c] at this
    · intro h j c
      by_cases hj : (j : ℕ) ≤ J
      · rw [hsS j hj c]; exact h j (Nat.lt_succ_of_le hj) c
      · rw [hfut j (Nat.lt_of_not_le hj) c]; exact bot_le
  -- the real denominator is positive
  have hLpos : 0 < ∑ j ∈ Finset.range (J + 1), ∑ c, wt (s j c) μ := by
    obtain ⟨c₀, hc₀⟩ := h0
    refine Finset.sum_pos' (fun j _ => Finset.sum_nonneg fun c _ => wt_nonneg _ _)
      ⟨0, Finset.mem_range.2 (Nat.succ_pos J), ?_⟩
    exact Finset.sum_pos' (fun c _ => wt_nonneg _ _)
      ⟨c₀, Finset.mem_univ _, wt_pos hc₀ (hs 0 (Nat.zero_le _) c₀) μ⟩
  have hLne : (∑ j ∈ Finset.range (J + 1), ∑ c, wt (s j c) μ) ≠ 0 := ne_of_gt hLpos
  -- the whole-row denominator is the running denominator
  have hL : refDen S = ((∑ j ∈ Finset.range (J + 1), ∑ c, wt (s j c) μ : ℝ) : EReal) := by
    unfold refDen
    rw [hM, zero_add,
      Finset.sum_congr rfl (fun j _ => Finset.sum_congr rfl (fun c _ => exp_sub_coe (hS j c) μ)),
      Finset.sum_congr rfl (fun j _ => coe_sum Finset.univ (fun c => wt (S j c) μ)), coe_sum]
    congr 1
    refine sum_fin_eq_sum_range hJ _ (fun j => ∑ c, wt (s j c) μ) (fun j hj => ?_) (fun j hj => ?_)
    · exact Finset.sum_congr rfl fun c _ => by rw [hsS j hj c]
    · exact Finset.sum_eq_zero fun c _ => by rw [hfut j hj c]; simp [wt]
  -- each term of the whole-row numerator is a real number
  have hterm : ∀ (j : Fin T) (c : Fin W),
      Ideal.div (Ideal.exp (S j c - refMax S)) (refDen S) * V j c
        = ((wt (S j c) μ * (1 / ∑ j ∈ Finset.range (J + 1), ∑ c, wt (s j c) μ)
            * (V j c).toReal : ℝ) : EReal) := fun j c => by
    rw [hM, hL, Ideal.div_coe hLne, exp_sub_coe (hS j c) μ, ← EReal.coe_mul]
    by_cases hj : (j : ℕ) ≤ J
    · rw [hvV j hj c, hv' j hj c, EReal.toReal_coe, ← EReal.coe_mul]
    · have h0' : wt (S j c) μ = 0 := by rw [hfut j (Nat.lt_of_not_le hj) c]; simp [wt]
      rw [h0', zero_mul, zero_mul, EReal.coe_zero, zero_mul]
  unfold refOut onlineOut
  rw [hμ, Ideal.div_coe hLne, ← EReal.coe_mul, zero_add,
    Finset.sum_congr rfl (fun j _ => Finset.sum_congr rfl (fun c _ => hterm j c)),
    Finset.sum_congr rfl (fun j _ => coe_sum Finset.univ _), coe_sum]
  congr 1
  rw [sum_fin_eq_sum_range hJ _
    (fun j => ∑ c, wt (s j c) μ * (1 / ∑ j ∈ Finset.range (J + 1), ∑ c, wt (s j c) μ)
      * (v j c).toReal) (fun j hj => ?_) (fun j hj => ?_), Finset.sum_mul]
  · refine Finset.sum_congr rfl fun j _ => ?_
    rw [Finset.sum_mul]
    exact Finset.sum_congr rfl fun c _ => by ring
  · exact Finset.sum_congr rfl fun c _ => by rw [hsS j hj c, hvV j hj c]
  · exact Finset.sum_eq_zero fun c _ => by rw [hfut j hj c]; simp [wt]

/-- Unfolding: no tile processed. -/
theorem run_zero {W : ℕ} (s v : ℕ → Fin W → EReal) : run s v 0 = (⊥, 0, 0) := rfl

/-- Unfolding: one more tile processed. -/
theorem run_succ {W : ℕ} (s v : ℕ → Fin W → EReal) (n : ℕ) :
    run s v (n + 1) = step (s n) (v n) (run s v n) := rfl

/-- Unfolding by component: the running maximum after one more tile. -/
theorem run_succ_max {W : ℕ} (s v : ℕ → Fin W → EReal) (n : ℕ) :
    (run s v (n + 1)).1 = max (run s v n).1 ((Finset.univ : Finset (Fin W)).fold max ⊥ (s n)) := rfl

/-- Unfolding by component: the running denominator after one more tile, the old one rescaled to the
    new maximum plus the tile's weights. -/
theorem run_succ_den {W : ℕ} (s v : ℕ → Fin W → EReal) (n : ℕ) :
    (run s v (n + 1)).2.1
      = Ideal.exp ((run s v n).1
            - max (run s v n).1 ((Finset.univ : Finset (Fin W)).fold max ⊥ (s n))) * (run s v n).2.1
        + ∑ c : Fin W, Ideal.exp (s n c
            - max (run s v n).1 ((Finset.univ : Finset (Fin W)).fold max ⊥ (s n))) := rfl

/-- Unfolding by component: the running numerator after one more tile, the old one rescaled to the
    new maximum plus the tile's weighted values. -/
theorem run_succ_num {W : ℕ} (s v : ℕ → Fin W → EReal) (n : ℕ) :
    (run s v (n + 1)).2.2
      = Ideal.exp ((run s v n).1
            - max (run s v n).1 ((Finset.univ : Finset (Fin W)).fold max ⊥ (s n))) * (run s v n).2.2
        + ∑ c : Fin W, Ideal.exp (s n c
            - max (run s v n).1 ((Finset.univ : Finset (Fin W)).fold max ⊥ (s n))) * v n c := rfl

/-- The running denominator after one more tile, written with the new running maximum. -/
theorem run_succ_den' {W : ℕ} (s v : ℕ → Fin W → EReal) (n : ℕ) :
    (run s v (n + 1)).2.1
      = Ideal.exp ((run s v n).1 - (run s v (n + 1)).1) * (run s v n).2.1
        + ∑ c : Fin W, Ideal.exp (s n c - (run s v (n + 1)).1) := rfl

/-- The running numerator after one more tile, written with the new running maximum. -/
theorem run_succ_num' {W : ℕ} (s v : ℕ → Fin W → EReal) (n : ℕ) :
    (run s v (n + 1)).2.2
      = Ideal.exp ((run s v n).1 - (run s v (n + 1)).1) * (run s v n).2.2
        + ∑ c : Fin W, Ideal.exp (s n c - (run s v (n + 1)).1) * v n c := rfl

/-- The components of the state before any tile. -/
theorem run_zero_max {W : ℕ} (s v : ℕ → Fin W → EReal) : (run s v 0).1 = ⊥ := rfl
/-- The running denominator before any tile. -/
theorem run_zero_den {W : ℕ} (s v : ℕ → Fin W → EReal) : (run s v 0).2.1 = 0 := rfl
/-- The running numerator before any tile. -/
theorem run_zero_num {W : ℕ} (s v : ℕ → Fin W → EReal) : (run s v 0).2.2 = 0 := rfl

/-- The whole-row denominator without the reduction's initial `0`. -/
theorem refDen_eq {T W : ℕ} (S : Fin T → Fin W → EReal) :
    refDen S = ∑ j : Fin T, ∑ c : Fin W, Ideal.exp (S j c - refMax S) := by
  unfold refDen; rw [zero_add]

/-- The whole-row average without the zero accumulator. -/
theorem refOut_eq {T W : ℕ} (S V : Fin T → Fin W → EReal) :
    refOut S V
      = ∑ j : Fin T, ∑ c : Fin W, Ideal.div (Ideal.exp (S j c - refMax S)) (refDen S) * V j c := by
  unfold refOut; rw [zero_add]

/-- Two maxima (folds of `max` from `⊥`) over finite index types with the same upper bounds are
    equal: this re-indexes a row maximum (tile by tile, over pairs, over a flat index). -/
theorem fold_max_eq_of_forall_le {ι κ : Type*} [Fintype ι] [Fintype κ]
    (f : ι → EReal) (g : κ → EReal) (h : ∀ x, (∀ i, f i ≤ x) ↔ ∀ k, g k ≤ x) :
    (Finset.univ : Finset ι).fold max ⊥ f = (Finset.univ : Finset κ).fold max ⊥ g := by
  refine eq_of_forall_ge_iff fun x => ?_
  rw [Finset.fold_max_le, Finset.fold_max_le]
  constructor
  · rintro ⟨_, h1⟩
    exact ⟨bot_le, fun k _ => (h x).1 (fun i => h1 i (Finset.mem_univ _)) k⟩
  · rintro ⟨_, h1⟩
    exact ⟨bot_le, fun i _ => (h x).2 (fun k => h1 k (Finset.mem_univ _)) i⟩

/-- The whole-row maximum as ONE fold over the pairs (tile, column). -/
theorem refMax_eq_fold_prod {T W : ℕ} (S : Fin T → Fin W → EReal) :
    refMax S = max ⊥ ((Finset.univ : Finset (Fin T × Fin W)).fold max ⊥ fun p => S p.1 p.2) := by
  refine eq_of_forall_ge_iff fun x => ?_
  rw [refMax_le, max_le_iff, Finset.fold_max_le]
  constructor
  · intro h
    exact ⟨bot_le, bot_le, fun p _ => h p.1 p.2⟩
  · rintro ⟨_, _, h⟩ j c
    exact h (j, c) (Finset.mem_univ _)

/-- The tiles of `S` read by tile number: tile `n` for `n < T`, the constant `⊥` beyond. -/
def tiles {T W : ℕ} (S : Fin T → Fin W → EReal) (n : ℕ) : Fin W → EReal :=
  if h : n < T then S ⟨n, h⟩ else fun _ => ⊥

/-- Reading tile number `j < T` gives tile `j`. -/
theorem tiles_coe {T W : ℕ} (S : Fin T → Fin W → EReal) (j : Fin T) : tiles S (j : ℕ) = S j := by
  unfold tiles; rw [dif_pos j.2]

/-- The running form equals the whole-row form, with the running form reading the same `S`, `V`
    tile by tile (`tiles`). -/
theorem onlineOut_tiles_eq_refOut {T W : ℕ} (J : ℕ) (hJ : J < T)
    (S V : Fin T → Fin W → EReal)
    (hS : ∀ j : Fin T, (j : ℕ) ≤ J → ∀ c, S j c ≠ ⊤)
    (h0 : ∃ c₀, S ⟨0, Nat.lt_of_le_of_lt (Nat.zero_le J) hJ⟩ c₀ ≠ ⊥)
    (hV : ∀ j : Fin T, (j : ℕ) ≤ J → ∀ c, ∃ r : ℝ, V j c = (r : EReal))
    (hfut : ∀ j : Fin T, J < (j : ℕ) → ∀ c, S j c = ⊥) :
    onlineOut (tiles S) (tiles V) (J + 1) = refOut S V := by
  refine onlineOut_eq_refOut J hJ S V (tiles S) (tiles V)
    (fun j _ c => by rw [tiles_coe]) (fun j _ c => by rw [tiles_coe]) hfut ?_ ?_ ?_
  · intro j hj c
    have hjT : j < T := lt_of_le_of_lt hj hJ
    have := hS ⟨j, hjT⟩ hj c
    rwa [← tiles_coe S ⟨j, hjT⟩] at this
  · obtain ⟨c₀, hc₀⟩ := h0
    exact ⟨c₀, by rwa [← tiles_coe S ⟨0, _⟩] at hc₀⟩
  · intro j hj c
    have hjT : j < T := lt_of_le_of_lt hj hJ
    have := hV ⟨j, hjT⟩ hj c
    rwa [← tiles_coe V ⟨j, hjT⟩] at this

/-- The running form equals the whole-row form for MASKED scores: on the processed tiles a score is
    the real `σ j c` where `mask j c` holds and `⊥` elsewhere, the first tile has an unmasked column,
    and the values are the reals `ν j c`. -/
theorem onlineOut_eq_refOut_of_mask {T W : ℕ} (J : ℕ) (hJ : J < T)
    (S V : Fin T → Fin W → EReal) (s v : ℕ → Fin W → EReal)
    (mask : ℕ → Fin W → Prop) [∀ j c, Decidable (mask j c)] (σ ν : ℕ → Fin W → ℝ)
    (hsS : ∀ j : Fin T, (j : ℕ) ≤ J → ∀ c, S j c = s j c)
    (hvV : ∀ j : Fin T, (j : ℕ) ≤ J → ∀ c, V j c = v j c)
    (hfut : ∀ j : Fin T, J < (j : ℕ) → ∀ c, S j c = ⊥)
    (hs : ∀ j ≤ J, ∀ c, s j c = if mask j c then ((σ j c : ℝ) : EReal) else ⊥)
    (h0 : ∃ c₀, mask 0 c₀)
    (hv : ∀ j ≤ J, ∀ c, v j c = ((ν j c : ℝ) : EReal)) :
    onlineOut s v (J + 1) = refOut S V := by
  refine onlineOut_eq_refOut J hJ S V s v hsS hvV hfut ?_ ?_ (fun j hj c => ⟨ν j c, hv j hj c⟩)
  · intro j hj c
    rw [hs j hj c]
    split
    · exact EReal.coe_ne_top _
    · exact bot_ne_top
  · obtain ⟨c₀, hc₀⟩ := h0
    refine ⟨c₀, ?_⟩
    rw [hs 0 (Nat.zero_le _) c₀, if_pos hc₀]
    exact EReal.coe_ne_bot _

end

end OnlineSoftmax
-- ==== Proof.Spec.lean ====
/-
  Single-head attention over 4096 positions of width 1024, row by row, on the extended reals.

  From the input x (4096 x 1024) and three weight matrices the programs form the projections
  q = x wq, k = x wk, v = x wv (each entry a sum of 1024 products), the score of query row r
  against key row j, the sum over d of q(r,d) k(j,d) scaled by 1/sqrt(1024), the softmax of each
  row of scores, and the softmax-weighted average of the rows of v.

  The kernel scales q by the f32 word of 1/32 BEFORE the score product and walks the 4096 keys
  in 8 tiles of 512 keeping a running maximum, denominator and numerator; the reference scales
  the score AFTER the product by 1 / sqrt(1024) as it computes it, and normalises the whole row
  at once.  Key j is column c of tile t with j = 512 t + c.
-/
import Idealize.ShloMosaic.PureOps.Ideal
import Idealize.ShloMosaic.Lib.ValueIdx
import proofs.«174663_j13460427505739_2_alg».proof.Proof.LibOnlineSoftmax

open scoped BigOperators
open Idealize.ShloMosaic

namespace Attn

noncomputable section

/-- A matrix of extended reals by row and column. -/
abbrev Mat (a b : ℕ) : Type := Fin a → Fin b → EReal

/-- A two-dimensional array of extended reals read as a matrix: entry (r, k) is the array at the index with coordinates r, k. -/
def mat {a b : ℕ} (X : (⟨2, ![a, b]⟩ : Shape).Idx → EReal) : Mat a b := fun r k => X (ValueIdx.ix2 r k)

/-- A matrix laid out as a two-dimensional array: the array at an index is the entry at its two coordinates. -/
def arr {a b : ℕ} (f : Mat a b) : (⟨2, ![a, b]⟩ : Shape).Idx → EReal := fun i => f (i 0) (i 1)

theorem arr_ix2 {a b : ℕ} (f : Mat a b) (r : Fin a) (k : Fin b) : arr f (ValueIdx.ix2 r k) = f r k := rfl

theorem arr_mat {a b : ℕ} (X : (⟨2, ![a, b]⟩ : Shape).Idx → EReal) : arr (mat X) = X := by
  funext i; exact congrArg X (ValueIdx.eq_ix2 i).symm

/-- The f32 word of 1/32: the kernel's scale. -/
abbrev inv32 : EReal := Ideal.ofBits .f32 0x3D000000#32

/-- The reference's scale as it computes it: the word of 1 over the square root of the word of 1024. -/
abbrev invSqrt : EReal :=
  Ideal.div (Ideal.ofBits .f32 0x3F800000#32) (Ideal.sqrt (Ideal.ofBits .f32 0x44800000#32))

/-- The projection x w: entry (r, d) is the sum over k of x(r,k) w(k,d). -/
def proj (x : Mat 4096 1024) (w : Mat 1024 1024) : Mat 4096 1024 :=
  fun r d => ∑ k : Fin 1024, x r k * w k d

/-- Key row 512 t + c: column c of tile t. -/
def key (t : Fin 8) (c : Fin 512) : Fin 4096 :=
  ⟨t.val * 512 + c.val, by have := t.isLt; have := c.isLt; omega⟩

/-- Scores of query row r from a query matrix taken as given (already scaled), tile by tile. -/
def scoreQ (qs k : Mat 4096 1024) (r : Fin 4096) : Fin 8 → Fin 512 → EReal :=
  fun t c => ∑ d : Fin 1024, qs r d * k (key t c) d

/-- The kernel's scores of query row r, tile by tile: the query entries scaled first. -/
def scoreK (q k : Mat 4096 1024) (r : Fin 4096) : Fin 8 → Fin 512 → EReal :=
  fun t c => ∑ d : Fin 1024, (q r d * inv32) * k (key t c) d

/-- The reference's scores of query row r, tile by tile: the product scaled afterwards. -/
def scoreR (q k : Mat 4096 1024) (r : Fin 4096) : Fin 8 → Fin 512 → EReal :=
  fun t c => (∑ d : Fin 1024, q r d * k (key t c) d) * invSqrt

/-- Column d of the values, tile by tile. -/
def vals (v : Mat 4096 1024) (d : Fin 1024) : Fin 8 → Fin 512 → EReal :=
  fun t c => v (key t c) d

/-- What the kernel leaves at (r, d): running numerator over running denominator after the 8 tiles. -/
def kernelOut (x : Mat 4096 1024) (wq wk wv : Mat 1024 1024) (r : Fin 4096) (d : Fin 1024) : EReal :=
  OnlineSoftmax.onlineOut (OnlineSoftmax.tiles (scoreK (proj x wq) (proj x wk) r))
    (OnlineSoftmax.tiles (vals (proj x wv) d)) 8

/-- The kernel's scores are the scores of the scaled query matrix. -/
theorem scoreK_eq_scoreQ (q k : Mat 4096 1024) (r : Fin 4096) :
    scoreK q k r = scoreQ (fun r d => q r d * inv32) k r := rfl

/-- What the reference leaves at (r, d): the whole-row softmax-weighted average. -/
def referenceOut (x : Mat 4096 1024) (wq wk wv : Mat 1024 1024) (r : Fin 4096) (d : Fin 1024) : EReal :=
  OnlineSoftmax.refOut (scoreR (proj x wq) (proj x wk) r) (vals (proj x wv) d)

end

end Attn
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibFirstAxis.lean ====
/-
  Reading a two-dimensional value column by column on the extended reals, and a matrix product of any precision.

  The maximum of an [a, b] value over its FIRST axis, at column q, is the fold of `max` over the column's entries
  (k, q) from the starting value — the companion of the row maximum over the last axis.  And a matrix product of an
  [a, n] with an [n, b] operand into a zero accumulator reads, at (p, e), the sum over k of x(p,k) · w(k,e) whatever
  precision the product asks for: on the extended reals the precision only names roundings that are not there.
-/
import proofs.«174663_j13460427505739_2_alg».proof.Proof.LibRowReduce
import proofs.«174663_j13460427505739_2_alg».proof.Proof.LibColsMatmul
import Idealize.ShloMosaic.PureOps.Ideal.Laws
import Idealize.ShloMosaic.Lib.ValueIdx

noncomputable section

namespace Cert.FirstAxis

open Idealize.ShloMosaic Idealize.ShloMosaic.ValueIdx

/-- Column index `q` with coordinate `k` put back on the first axis is (k, q). -/
theorem lift_first2 {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- The maximum over the first axis, at column `q`: the fold of `max` over the column's entries. -/
theorem multiReduction_max_col {a b : Nat} {φ : FTy} (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction (F := Ideal) .maximumf [0] ⟨1, ![b]⟩ x acc h hφ hacc (ix1 q)
      = RowReduce.foldMax (Ideal.ofBits φ acc) fun k : Fin a => x (ix2 k q) := by
  refine (Ideal.multiReduction_maximumf_single x acc h hφ hacc (ix1 q)).trans ?_
  have hf : (x ∘ h.lift (ix1 q)) = fun k : Fin a => x (ix2 k q) := funext fun k => congrArg x (lift_first2 h q k)
  unfold RowReduce.foldMax
  exact congrArg (fun f => Finset.fold max (Ideal.ofBits φ acc) f (Finset.univ : Finset (Fin a))) hf

/-- A matrix product of an [a, n] with an [n, b] operand of any float formats into the zero accumulator, at (p, e),
    is the sum over k of x(p,k) · w(k,e), whatever precision the product asks for; the dimension record may be any
    record equal to "contract axis 1 of the left operand with axis 0 of the right". -/
theorem cols_matmul_prec {a b n : ℕ} {φ₁ φ₂ : FTy}
    (wf : DotDims.WF ⟨2, ![a, n]⟩ ⟨2, ![n, b]⟩ ⟨2, ![a, b]⟩ [1] [0] [0] [1] [] [])
    (d : DotDims ⟨2, ![a, n]⟩ ⟨2, ![n, b]⟩ ⟨2, ![a, b]⟩) (hd : d = Cert.ColsMatmul.colsDims wf)
    (prec : Option ContractPrecision) (x : FVec Ideal ⟨2, ![a, n]⟩ φ₁) (w : FVec Ideal ⟨2, ![n, b]⟩ φ₂) (p : Fin a) (e : Fin b) :
    FloatOps.matmul d prec x w (constant ⟨2, ![a, b]⟩ .f32 0x00000000#32) (ix2 p e)
      = ∑ k : Fin n, x (ix2 p k) * w (ix2 k e) := by
  subst hd
  exact (Ideal.matmul_constant_zero_apply _ prec x w (ix2 p e)).trans (Cert.ColsMatmul.contraction_cols wf x w p e)

end Cert.FirstAxis

end
-- ==== Proof.Value0.lean ====
/-
  What the three arrays written by the projection kernel hold after it, on the extended reals.

  The grid's point t is handed rows 512 t .. 512 t + 511 of x and the whole of each weight matrix, and writes
  back rows 512 t .. 512 t + 511 of each output array.  On the extended reals a matrix product into a zero
  accumulator is the sum over k of x(p,k) w(k,e) whatever precision it names, and a change of float format is the
  identity; so entry (p, e) of a point's output block is the sum over k of x(512 t + p, k) w(k, e) (times the word
  of 1/32 for the scaled query).  Row r of an output array lies in the block of point r / 512 and of no other, and
  every row lies in one, so after the last point the scaled query array is (x wq)/32, the key array x wk and the
  value array x wv, entry by entry, with x and the weights as they were found when the kernel was entered.
-/
import proofs.«174663_j13460427505739_2_alg».proof.Proof.Region0
import proofs.«174663_j13460427505739_2_alg».proof.Proof.Spec
import proofs.«174663_j13460427505739_2_alg».proof.Proof.LibFirstAxis
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-- The key payload at (p, e): row p of the x block against column e of wk. -/
theorem k0_pay1_apply (x0 : Vec Ideal S512x1024 .f32) (x2 : Vec Ideal S1024x1024 .f32) (p : Fin 512) (e : Fin 1024) :
    k0_pay1 x0 x2 (ix2 p e) = ∑ k : Fin 1024, x0 (ix2 p k) * x2 (ix2 k e) := by
  unfold k0_pay1
  exact Cert.FirstAxis.cols_matmul_prec dot_S512x1024_S1024x1024_S512x1024_1_0_0_1_n_n_wf dot_S512x1024_S1024x1024_S512x1024_1_0_0_1_n_n rfl (some .fp32) x0 x2 p e

/-- The scaled query payload at (p, e): row p of the x block against column e of wq, times the word of 1/32. -/
theorem k0_pay2_apply (x0 : Vec Ideal S512x1024 .f32) (x1 : Vec Ideal S1024x1024 .f32) (p : Fin 512) (e : Fin 1024) :
    k0_pay2 x0 x1 (ix2 p e) = (∑ k : Fin 1024, x0 (ix2 p k) * x1 (ix2 k e)) * Attn.inv32 := by
  unfold k0_pay2
  exact congrArg (· * Attn.inv32) (Cert.FirstAxis.cols_matmul_prec dot_S512x1024_S1024x1024_S512x1024_1_0_0_1_n_n_wf dot_S512x1024_S1024x1024_S512x1024_1_0_0_1_n_n rfl (some .fp32) x0 x1 p e)

/-- The value payload at (p, e): the changes of format are the identity, so again row p against column e. -/
theorem k0_pay3_apply (x0 : Vec Ideal S512x1024 .f32) (x3 : Vec Ideal S1024x1024 .bf16) (p : Fin 512) (e : Fin 1024) :
    k0_pay3 x0 x3 (ix2 p e) = ∑ k : Fin 1024, x0 (ix2 p k) * x3 (ix2 k e) := by
  unfold k0_pay3
  refine (Cert.FirstAxis.cols_matmul_prec dot_S512x1024_S1024x1024_S512x1024_1_0_0_1_n_n_wf dot_S512x1024_S1024x1024_S512x1024_1_0_0_1_n_n rfl none
    (truncf .bf16 x0 bitsLt_bf16_f32) (shapeCast S1024x1024 x3 shapeCasts_S1024x1024_S1024x1024) p e).trans ?_
  rw [shapeCast_self]
  rfl

/-! ## The printed index maps, decided over the 8 grid points -/

/-- The x block and the three output blocks of point t are block t along the rows; every other block index is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of the block of point t is row 512 t + p of the array. -/
def blockRow0 (t : Fin cfg0.N) (p : Fin 512) : Fin 4096 :=
  ⟨512 * t.val + p.val, by have ht : t.val < grid0.N := t.isLt; rw [N_0] at ht; have := p.isLt; omega⟩

/-! ## The input blocks as entries of the arrays found on entry -/

/-- The x block of point t at (p, k) is x at (512 t + p, k). -/
theorem xblock0_apply (c : Dev nD) (t : Fin cfg0.N) (p : Fin 512) (k : Fin 1024) :
    (iblk0 V c 0 t : Vec Ideal S512x1024 .f32) (ix2 p k) = (V c main_arg0 : S4096x1024.Idx → EReal) (ix2 (blockRow0 t p) k) := by
  obtain ⟨h0, h1, -⟩ := idx_facts0 t
  unfold iblk0
  rw [View.read_apply]
  show V c main_arg0 _ = V c main_arg0 _
  congr 1
  funext a
  apply Fin.ext
  match a with
  | ⟨0, _⟩ => show win0_0.index t 0 * 512 + 1 * p.val = 512 * t.val + p.val; rw [h0]; omega
  | ⟨1, _⟩ => show win0_0.index t 1 * 1024 + 1 * k.val = k.val; rw [h1]; omega

/-- The wq block of any point is wq. -/
theorem wqblock0_apply (c : Dev nD) (t : Fin cfg0.N) (k : Fin 1024) (e : Fin 1024) :
    (iblk0 V c 1 t : Vec Ideal S1024x1024 .f32) (ix2 k e) = (V c main_arg1 : S1024x1024.Idx → EReal) (ix2 k e) := by
  obtain ⟨-, -, h0, h1, -⟩ := idx_facts0 t
  unfold iblk0
  rw [View.read_apply]
  show V c main_arg1 _ = V c main_arg1 _
  congr 1
  funext a
  apply Fin.ext
  match a with
  | ⟨0, _⟩ => show win0_1.index t 0 * 1024 + 1 * k.val = k.val; rw [h0]; omega
  | ⟨1, _⟩ => show win0_1.index t 1 * 1024 + 1 * e.val = e.val; rw [h1]; omega

/-- The wk block of any point is wk. -/
theorem wkblock0_apply (c : Dev nD) (t : Fin cfg0.N) (k : Fin 1024) (e : Fin 1024) :
    (iblk0 V c 2 t : Vec Ideal S1024x1024 .f32) (ix2 k e) = (V c main_arg2 : S1024x1024.Idx → EReal) (ix2 k e) := by
  obtain ⟨-, -, -, -, h0, h1, -⟩ := idx_facts0 t
  unfold iblk0
  rw [View.read_apply]
  show V c main_arg2 _ = V c main_arg2 _
  congr 1
  funext a
  apply Fin.ext
  match a with
  | ⟨0, _⟩ => show win0_2.index t 0 * 1024 + 1 * k.val = k.val; rw [h0]; omega
  | ⟨1, _⟩ => show win0_2.index t 1 * 1024 + 1 * e.val = e.val; rw [h1]; omega

/-- The wv block of any point is wv. -/
theorem wvblock0_apply (c : Dev nD) (t : Fin cfg0.N) (k : Fin 1024) (e : Fin 1024) :
    (iblk0 V c 3 t : Vec Ideal S1024x1024 .bf16) (ix2 k e) = (V c main_v0 : S1024x1024.Idx → EReal) (ix2 k e) := by
  obtain ⟨-, -, -, -, -, -, h0, h1, -⟩ := idx_facts0 t
  unfold iblk0
  rw [View.read_apply]
  show V c main_v0 _ = V c main_v0 _
  congr 1
  funext a
  apply Fin.ext
  match a with
  | ⟨0, _⟩ => show win0_3.index t 0 * 1024 + 1 * k.val = k.val; rw [h0]; omega
  | ⟨1, _⟩ => show win0_3.index t 1 * 1024 + 1 * e.val = e.val; rw [h1]; omega

/-! ## The scaled query array -/

/-- What the scaled query array ends holding: (x wq)(r, d) times the word of 1/32. -/
abbrev G0_4 (c : Dev nD) : S4096x1024.Idx → EReal :=
  Attn.arr (fun r d => Attn.proj (Attn.mat (V c main_arg0)) (Attn.mat (V c main_arg1)) r d * Attn.inv32)

/-- The scaled query payload over a block whose row p is row r of x, and the whole of wq, is the array's entry (r, e). -/
theorem q_entry0 (x0 : Vec Ideal S512x1024 .f32) (x1 : Vec Ideal S1024x1024 .f32) (X : S4096x1024.Idx → EReal) (W : S1024x1024.Idx → EReal)
    (r : Fin 4096) (p : Fin 512) (e : Fin 1024)
    (hx : ∀ k, x0 (ix2 p k) = X (ix2 r k)) (hw : ∀ k, x1 (ix2 k e) = W (ix2 k e)) :
    k0_pay2 x0 x1 (ix2 p e) = Attn.arr (fun r d => Attn.proj (Attn.mat X) (Attn.mat W) r d * Attn.inv32) (ix2 r e) := by
  rw [k0_pay2_apply, Attn.arr_ix2]
  unfold Attn.proj Attn.mat
  exact congrArg (· * Attn.inv32) (Finset.sum_congr rfl fun k _ => by rw [hx k, hw k])

/-- Point t writes back rows 512 t .. 512 t + 511 of the scaled query array. -/
theorem flushed0_4_eq (c : Dev nD) (t : Fin cfg0.N) :
    (dat0 (F := Ideal) V c).flushed 4 t = ((cfg0.win 4).blk t).view.read (Elt Ideal) (G0_4 V c) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x1024) hz0]
  obtain ⟨-, -, -, -, -, -, -, -, h0, h1, -⟩ := idx_facts0 t
  funext j
  obtain ⟨p, e, rfl⟩ : ∃ (p : Fin 512) (e : Fin 1024), j = ix2 p e := ⟨j 0, j 1, eq_ix2 j⟩
  have hemb : ((cfg0.win 4).blk t).view.emb (ix2 p e) = ix2 (blockRow0 t p) e := by
    funext a
    apply Fin.ext
    match a with
    | ⟨0, _⟩ => show win0_4.index t 0 * 512 + 1 * p.val = 512 * t.val + p.val; rw [h0]; omega
    | ⟨1, _⟩ => show win0_4.index t 1 * 1024 + 1 * e.val = e.val; rw [h1]; omega
  show k0_pay2 (iblk0 V c 0 t) (iblk0 V c 1 t) (ix2 p e) = G0_4 V c (((cfg0.win 4).blk t).view.emb (ix2 p e))
  rw [hemb]
  exact q_entry0 (iblk0 V c 0 t) (iblk0 V c 1 t) (V c main_arg0) (V c main_arg1) (blockRow0 t p) p e
    (fun k => xblock0_apply V c t p k) (fun k => wqblock0_apply V c t k e)

/-- An index of the array is in point t's block iff each coordinate is in the block's range on its axis. -/
theorem mem_blk0_4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1_0).slice (win0_4.rect t)).set ↔ _
  rw [View.set_slice_whole, Rect.mem_set_unit]
  exact Iff.rfl

/-- Row r is written back by point r / 512. -/
theorem cover0_4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : (i 0).val / 512 < cfg0.N := by show _ < grid0.N; rw [N_0]; omega
  obtain ⟨-, -, -, -, -, -, -, -, h0, h1, -⟩ := idx_facts0 ⟨(i 0).val / 512, hN⟩
  refine ⟨⟨(i 0).val / 512, hN⟩, flush0_4 _, ?_⟩
  rw [mem_blk0_4]
  intro a
  match a with
  | ⟨0, _⟩ => show win0_4.index _ 0 * 512 ≤ (i 0).val ∧ (i 0).val < win0_4.index _ 0 * 512 + 512; rw [h0]; show (i 0).val / 512 * 512 ≤ _ ∧ _ < (i 0).val / 512 * 512 + 512; omega
  | ⟨1, _⟩ => show win0_4.index _ 1 * 1024 ≤ (i 1).val ∧ (i 1).val < win0_4.index _ 1 * 1024 + 1024; rw [h1]; omega

/-- After the region the scaled query array holds (x wq)(r, d) times the word of 1/32 at every (r, d). -/
theorem arrAt0_4 (c : Dev nD) : (dat0 (F := Ideal) V c).arrAt 4 cfg0.N = Attn.arr (fun r d => Attn.proj (Attn.mat (V c main_arg0)) (Attn.mat (V c main_arg1)) r d * Attn.inv32) :=
  (dat0 V c).arrAt_eq_of_cover 4 (G0_4 V c) (fun t _ => flushed0_4_eq V c t) cover0_4

/-! ## The key array -/

/-- What the key array ends holding: (x wk)(r, d). -/
abbrev G0_5 (c : Dev nD) : S4096x1024.Idx → EReal :=
  Attn.arr (Attn.proj (Attn.mat (V c main_arg0)) (Attn.mat (V c main_arg2)))

/-- The key payload over a block whose row p is row r of x, and the whole of wk, is the array's entry (r, e). -/
theorem k_entry0 (x0 : Vec Ideal S512x1024 .f32) (x1 : Vec Ideal S1024x1024 .f32) (X : S4096x1024.Idx → EReal) (W : S1024x1024.Idx → EReal)
    (r : Fin 4096) (p : Fin 512) (e : Fin 1024)
    (hx : ∀ k, x0 (ix2 p k) = X (ix2 r k)) (hw : ∀ k, x1 (ix2 k e) = W (ix2 k e)) :
    k0_pay1 x0 x1 (ix2 p e) = Attn.arr (Attn.proj (Attn.mat X) (Attn.mat W)) (ix2 r e) := by
  rw [k0_pay1_apply, Attn.arr_ix2]
  unfold Attn.proj Attn.mat
  exact Finset.sum_congr rfl fun k _ => by rw [hx k, hw k]

/-- Point t writes back rows 512 t .. 512 t + 511 of the key array. -/
theorem flushed0_5_eq (c : Dev nD) (t : Fin cfg0.N) :
    (dat0 (F := Ideal) V c).flushed 5 t = ((cfg0.win 5).blk t).view.read (Elt Ideal) (G0_5 V c) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x1024) hz0]
  obtain ⟨-, -, -, -, -, -, -, -, -, -, h0, h1, -⟩ := idx_facts0 t
  funext j
  obtain ⟨p, e, rfl⟩ : ∃ (p : Fin 512) (e : Fin 1024), j = ix2 p e := ⟨j 0, j 1, eq_ix2 j⟩
  have hemb : ((cfg0.win 5).blk t).view.emb (ix2 p e) = ix2 (blockRow0 t p) e := by
    funext a
    apply Fin.ext
    match a with
    | ⟨0, _⟩ => show win0_5.index t 0 * 512 + 1 * p.val = 512 * t.val + p.val; rw [h0]; omega
    | ⟨1, _⟩ => show win0_5.index t 1 * 1024 + 1 * e.val = e.val; rw [h1]; omega
  show k0_pay1 (iblk0 V c 0 t) (iblk0 V c 2 t) (ix2 p e) = G0_5 V c (((cfg0.win 5).blk t).view.emb (ix2 p e))
  rw [hemb]
  exact k_entry0 (iblk0 V c 0 t) (iblk0 V c 2 t) (V c main_arg0) (V c main_arg2) (blockRow0 t p) p e
    (fun k => xblock0_apply V c t p k) (fun k => wkblock0_apply V c t k e)

/-- An index of the array is in point t's block iff each coordinate is in the block's range on its axis. -/
theorem mem_blk0_5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v1_1).slice (win0_5.rect t)).set ↔ _
  rw [View.set_slice_whole, Rect.mem_set_unit]
  exact Iff.rfl

/-- Row r is written back by point r / 512. -/
theorem cover0_5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : (i 0).val / 512 < cfg0.N := by show _ < grid0.N; rw [N_0]; omega
  obtain ⟨-, -, -, -, -, -, -, -, -, -, h0, h1, -⟩ := idx_facts0 ⟨(i 0).val / 512, hN⟩
  refine ⟨⟨(i 0).val / 512, hN⟩, flush0_5 _, ?_⟩
  rw [mem_blk0_5]
  intro a
  match a with
  | ⟨0, _⟩ => show win0_5.index _ 0 * 512 ≤ (i 0).val ∧ (i 0).val < win0_5.index _ 0 * 512 + 512; rw [h0]; show (i 0).val / 512 * 512 ≤ _ ∧ _ < (i 0).val / 512 * 512 + 512; omega
  | ⟨1, _⟩ => show win0_5.index _ 1 * 1024 ≤ (i 1).val ∧ (i 1).val < win0_5.index _ 1 * 1024 + 1024; rw [h1]; omega

/-- After the region the key array holds (x wk)(r, d) at every (r, d). -/
theorem arrAt0_5 (c : Dev nD) : (dat0 (F := Ideal) V c).arrAt 5 cfg0.N = Attn.arr (Attn.proj (Attn.mat (V c main_arg0)) (Attn.mat (V c main_arg2))) :=
  (dat0 V c).arrAt_eq_of_cover 5 (G0_5 V c) (fun t _ => flushed0_5_eq V c t) cover0_5

/-! ## The value array -/

/-- What the value array ends holding: (x wv)(r, d), wv being the bf16 copy of the fourth argument. -/
abbrev G0_6 (c : Dev nD) : S4096x1024.Idx → EReal :=
  Attn.arr (Attn.proj (Attn.mat (V c main_arg0)) (Attn.mat (V c main_v0)))

/-- The value payload over a block whose row p is row r of x, and the whole of wv, is the array's entry (r, e). -/
theorem v_entry0 (x0 : Vec Ideal S512x1024 .f32) (x1 : Vec Ideal S1024x1024 .bf16) (X : S4096x1024.Idx → EReal) (W : S1024x1024.Idx → EReal)
    (r : Fin 4096) (p : Fin 512) (e : Fin 1024)
    (hx : ∀ k, x0 (ix2 p k) = X (ix2 r k)) (hw : ∀ k, x1 (ix2 k e) = W (ix2 k e)) :
    k0_pay3 x0 x1 (ix2 p e) = Attn.arr (Attn.proj (Attn.mat X) (Attn.mat W)) (ix2 r e) := by
  rw [k0_pay3_apply, Attn.arr_ix2]
  unfold Attn.proj Attn.mat
  exact Finset.sum_congr rfl fun k _ => by rw [hx k, hw k]

/-- Point t writes back rows 512 t .. 512 t + 511 of the value array. -/
theorem flushed0_6_eq (c : Dev nD) (t : Fin cfg0.N) :
    (dat0 (F := Ideal) V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz0]
  simp only [View.ld_unit_zero (S := S512x1024) hz0, View.ld_unit_zero (S := S1024x1024) hz0]
  obtain ⟨-, -, -, -, -, -, -, -, -, -, -, -, h0, h1⟩ := idx_facts0 t
  funext j
  obtain ⟨p, e, rfl⟩ : ∃ (p : Fin 512) (e : Fin 1024), j = ix2 p e := ⟨j 0, j 1, eq_ix2 j⟩
  have hemb : ((cfg0.win 6).blk t).view.emb (ix2 p e) = ix2 (blockRow0 t p) e := by
    funext a
    apply Fin.ext
    match a with
    | ⟨0, _⟩ => show win0_6.index t 0 * 512 + 1 * p.val = 512 * t.val + p.val; rw [h0]; omega
    | ⟨1, _⟩ => show win0_6.index t 1 * 1024 + 1 * e.val = e.val; rw [h1]; omega
  show k0_pay3 (iblk0 V c 0 t) (iblk0 V c 3 t) (ix2 p e) = G0_6 V c (((cfg0.win 6).blk t).view.emb (ix2 p e))
  rw [hemb]
  exact v_entry0 (iblk0 V c 0 t) (iblk0 V c 3 t) (V c main_arg0) (V c main_v0) (blockRow0 t p) p e
    (fun k => xblock0_apply V c t p k) (fun k => wvblock0_apply V c t k e)

/-- An index of the array is in point t's block iff each coordinate is in the block's range on its axis. -/
theorem mem_blk0_6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v1_2).slice (win0_6.rect t)).set ↔ _
  rw [View.set_slice_whole, Rect.mem_set_unit]
  exact Iff.rfl

/-- Row r is written back by point r / 512. -/
theorem cover0_6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : (i 0).val / 512 < cfg0.N := by show _ < grid0.N; rw [N_0]; omega
  obtain ⟨-, -, -, -, -, -, -, -, -, -, -, -, h0, h1⟩ := idx_facts0 ⟨(i 0).val / 512, hN⟩
  refine ⟨⟨(i 0).val / 512, hN⟩, flush0_6 _, ?_⟩
  rw [mem_blk0_6]
  intro a
  match a with
  | ⟨0, _⟩ => show win0_6.index _ 0 * 512 ≤ (i 0).val ∧ (i 0).val < win0_6.index _ 0 * 512 + 512; rw [h0]; show (i 0).val / 512 * 512 ≤ _ ∧ _ < (i 0).val / 512 * 512 + 512; omega
  | ⟨1, _⟩ => show win0_6.index _ 1 * 1024 ≤ (i 1).val ∧ (i 1).val < win0_6.index _ 1 * 1024 + 1024; rw [h1]; omega

/-- After the region the value array holds (x wv)(r, d) at every (r, d). -/
theorem arrAt0_6 (c : Dev nD) : (dat0 (F := Ideal) V c).arrAt 6 cfg0.N = Attn.arr (Attn.proj (Attn.mat (V c main_arg0)) (Attn.mat (V c main_v0))) :=
  (dat0 V c).arrAt_eq_of_cover 6 (G0_6 V c) (fun t _ => flushed0_6_eq V c t) cover0_6

end Cert.KernelIdeal.Hand

end
-- ==== Proof.Value1Cases.lean ====
/-
  The attention kernel's three cases, read back as arithmetic.

  At every point the body reads the query block x0 (1024 x 1024), the key block x1 (512 x 1024), the value block
  x2 (512 x 1024) and the three scratch buffers: the running maximum m and the running denominator l (one column
  each, 1024 x 1) and the running numerator a (1024 x 1024).  It leaves

      new maximum      the row maximum of the tile's scores joined with m,
      new denominator  exp(m - new maximum) l + the row sums of exp(scores - new maximum),
      new numerator    exp(m - new maximum) a + exp(scores - new maximum) times the value block,

  each stored by ONE store that covers its buffer, so what the buffer holds afterwards is that store's payload.  At
  a first-key-tile point the three buffers are first overwritten by the reset state (the -infinity word, the zero
  word, the zero word), which the loads that follow then read; at a last-key-tile point the output block is also
  stored: the new numerator divided by the new denominator.  These statements hold for any float values.
-/
import proofs.«174663_j13460427505739_2_alg».proof.Proof.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-- Zero offsets, however spelt. -/
theorem hz2 : (![0, 0] : Fin 2 → Nat) = fun _ => 0 := funext fun a => by fin_cases a <;> rfl

/-- The whole running-maximum buffer read back at the contents it is owned at. -/
theorem rd0 (X : Vec F S1024x1 .f32) (h : scM1_0.IsWhole) : View.read (Elt F) (View.whole cc1_scratch0) (h.unread X) = X := h.read_unread X
/-- The same for the running denominator, -/
theorem rd1 (X : Vec F S1024x1 .f32) (h : scM1_1.IsWhole) : View.read (Elt F) (View.whole cc1_scratch1) (h.unread X) = X := h.read_unread X
/-- and for the running numerator. -/
theorem rd2 (X : Vec F S1024x1024 .f32) (h : scM1_2.IsWhole) : View.read (Elt F) (View.whole cc1_scratch2) (h.unread X) = X := h.read_unread X

/-! ## What each case leaves, as the body's arithmetic of the point's blocks and of the state before -/

/-- The new running maximum from the query block, the key block and the old maximum. -/
abbrev newMax (x0 : Vec F S1024x1024 .f32) (x1 : Vec F S512x1024 .f32) (m : Vec F S1024x1 .f32) : Vec F S1024x1 .f32 :=
  k1_pay2 (k1_pay8 x0 x1 m)
/-- The new running denominator. -/
abbrev newDen (x0 : Vec F S1024x1024 .f32) (x1 : Vec F S512x1024 .f32) (m l : Vec F S1024x1 .f32) : Vec F S1024x1 .f32 :=
  k1_pay11 x0 x1 m m l
/-- The new running numerator. -/
abbrev newNum (x0 : Vec F S1024x1024 .f32) (x1 : Vec F S512x1024 .f32) (x2 : Vec F S512x1024 .bf16) (m : Vec F S1024x1 .f32)
    (a : Vec F S1024x1024 .f32) : Vec F S1024x1024 .f32 :=
  k1_pay1 (k1_pay12 x0 x1 m m a) (k1_pay13 x0 x1 x2 m)

/-- A middle point leaves the new maximum of the old one, -/
theorem leftB_max (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) :
    (leftB V c t hc0 hc1 p).2.1 = newMax (iblk1 V c 0 t) (iblk1 V c 1 t) p.2.1 := by
  unfold leftB
  dsimp only
  rw [View.read_writes_eq_canon _ _ _ (coverB_0 V c t hc0 hc1 p)]
  unfold runB kernelRun1_B
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
/-- the new denominator of the old maximum and denominator, -/
theorem leftB_den (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) :
    (leftB V c t hc0 hc1 p).2.2.1 = newDen (iblk1 V c 0 t) (iblk1 V c 1 t) p.2.1 p.2.2.1 := by
  unfold leftB
  dsimp only
  rw [View.read_writes_eq_canon _ _ _ (coverB_1 V c t hc0 hc1 p)]
  unfold runB kernelRun1_B
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
/-- and the new numerator of the old maximum and numerator. -/
theorem leftB_num (c : Dev nD) (t : Fin cfg1.N) (hc0 : ¬cond1_0 (grid1.coords t)) (hc1 : ¬cond1_1 (grid1.coords t)) (p : Vec F S1024x1024 .f32 × Vec F S1024x1 .f32 × Vec F S1024x1 .f32 × Vec F S1024x1024 .f32) :
    (leftB V c t hc0 hc1 p).2.2.2 = newNum (iblk1 V c 0 t) (iblk1 V c 1 t) (iblk1 V c 2 t) p.2.1 p.2.2.2 := by
  unfold leftB
  dsimp only
  rw [View.read_writes_eq_canon _ _ _ (coverB_2 V c t hc0 hc1 p)]
  unfold runB kernelRun1_B
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]

/-- A first-key-tile point leaves the same of the reset state (the -infinity word, the zero word, the zero word): -/
theorem leftA_max (c : Dev nD) (t : Fin cfg1.N) (hc0 : cond1_0 (grid1.coords t)) (hc1 : ¬cond1_1 (grid1.coords t)) :
    (leftA V c t hc0 hc1).2.1 = newMax (iblk1 V c 0 t) (iblk1 V c 1 t) k1_pay4 := by
  unfold leftA
  dsimp only
  rw [View.read_writes_eq_canon _ _ _ (coverA_0 V c t hc0 hc1)]
  unfold runA kernelRun1_A
  dsimp only
  sl_unfold_words
  rw [View.canon_cons_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
theorem leftA_den (c : Dev nD) (t : Fin cfg1.N) (hc0 : cond1_0 (grid1.coords t)) (hc1 : ¬cond1_1 (grid1.coords t)) :
    (leftA V c t hc0 hc1).2.2.1 = newDen (iblk1 V c 0 t) (iblk1 V c 1 t) k1_pay4 k1_pay5 := by
  unfold leftA
  dsimp only
  rw [View.read_writes_eq_canon _ _ _ (coverA_1 V c t hc0 hc1)]
  unfold runA kernelRun1_A
  dsimp only
  sl_unfold_words
  rw [View.canon_cons_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
theorem leftA_num (c : Dev nD) (t : Fin cfg1.N) (hc0 : cond1_0 (grid1.coords t)) (hc1 : ¬cond1_1 (grid1.coords t)) :
    (leftA V c t hc0 hc1).2.2.2 = newNum (iblk1 V c 0 t) (iblk1 V c 1 t) (iblk1 V c 2 t) k1_pay4 k1_pay6 := by
  unfold leftA
  dsimp only
  rw [View.read_writes_eq_canon _ _ _ (coverA_2 V c t hc0 hc1)]
  unfold runA kernelRun1_A
  dsimp only
  sl_unfold_words
  rw [View.canon_cons_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]

/-- A last-key-tile point leaves what a middle point does, -/
theorem leftC_max (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) :
    (leftC V c t hc0 hc1 p).2.1 = newMax (iblk1 V c 0 t) (iblk1 V c 1 t) p.2.1 := by
  unfold leftC
  dsimp only
  rw [View.read_writes_eq_canon _ _ _ (coverC_0 V c t hc0 hc1 p)]
  unfold runC kernelRun1_C
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
theorem leftC_den (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) :
    (leftC V c t hc0 hc1 p).2.2.1 = newDen (iblk1 V c 0 t) (iblk1 V c 1 t) p.2.1 p.2.2.1 := by
  unfold leftC
  dsimp only
  rw [View.read_writes_eq_canon _ _ _ (coverC_1 V c t hc0 hc1 p)]
  unfold runC kernelRun1_C
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
theorem leftC_num (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) :
    (leftC V c t hc0 hc1 p).2.2.2 = newNum (iblk1 V c 0 t) (iblk1 V c 1 t) (iblk1 V c 2 t) p.2.1 p.2.2.2 := by
  unfold leftC
  dsimp only
  rw [View.read_writes_eq_canon _ _ _ (coverC_2 V c t hc0 hc1 p)]
  unfold runC kernelRun1_C
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]
/-- and in the output block the new numerator over the new denominator. -/
theorem leftC_out (c : Dev nD) (t : Fin cfg1.N) (hc0 : ¬cond1_0 (grid1.coords t)) (hc1 : cond1_1 (grid1.coords t)) (p : Vec F S1024x1024 .f32 × Vec F S1024x1 .f32 × Vec F S1024x1 .f32 × Vec F S1024x1024 .f32) :
    (leftC V c t hc0 hc1 p).1 = k1_pay3 (newNum (iblk1 V c 0 t) (iblk1 V c 1 t) (iblk1 V c 2 t) p.2.1 p.2.2.2) (newDen (iblk1 V c 0 t) (iblk1 V c 1 t) p.2.1 p.2.2.1) := by
  unfold leftC
  dsimp only
  rw [View.read_writes_eq_canon _ _ _ (coverC_3 V c t hc0 hc1 p)]
  unfold runC kernelRun1_C
  dsimp only
  sl_unfold_words
  rw [View.canon_unit_zero hz2]
  simp only [View.readAt_eq_ld, (hs1_0 t).read_unread, (hs1_1 t).read_unread, (hs1_2 t).read_unread,
    View.readCov_unit_zero (S := S1024x1024) _ hz2, View.readCov_unit_zero (S := S1024x1) _ hz2,
    View.ld_unit_zero (S := S1024x1024) hz2, View.ld_unit_zero (S := S512x1024) hz2,
    View.ld_unit_zero (S := S1024x1) hz2, rd0, rd1, rd2]

end Cert.KernelIdeal.Hand

end
-- ==== Proof.Pay1.lean ====
/-
  The arithmetic of one step of the attention kernel, entry by entry, on the extended reals.

  A step is handed a block of 1024 scaled query rows, a tile of 512 key rows and the tile's 512 value rows, and
  the running maximum m, denominator l (columns of 1024 entries) and numerator a (1024 x 1024) of each query row.
  The score of query row p against key c of the tile is the sum over d' of q(p,d') k(c,d'): the product of the query
  block with the transposed key tile, a matrix product into a zero accumulator, which on the extended reals is that
  sum whatever precision it names.  The new maximum of row p is max m (the largest score of the row, the fold of
  max from the word of minus infinity, which is the bottom element); with M that maximum, the new denominator is
  exp (m - M) l + the sum over c of exp (score(p,c) - M) (a row sum from the zero word), and the new numerator at
  (p, d) is exp (m - M) a(p,d) + the sum over c of exp (score(p,c) - M) v(c,d) (a second matrix product, whose
  changes of float format are the identity here).  These are exactly the three components of one step of the
  running softmax.  The first point of a row block starts from (bottom, 0, 0), and the last divides the numerator by
  the denominator of its row.
-/
import proofs.«174663_j13460427505739_2_alg».proof.Proof.Gen.KernelIdeal.Skeleton
import proofs.«174663_j13460427505739_2_alg».proof.Proof.LibOnlineSoftmax
import proofs.«174663_j13460427505739_2_alg».proof.Proof.LibFirstAxis
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-- The f32 word of minus infinity is the bottom of the extended reals. -/
theorem k1_negInf_word : Ideal.ofBits .f32 0xFF800000#32 = (⊥ : EReal) := by
  simp [Ideal.ofBits, Ideal.ieee]

/-- The score of query row p against key c of the tile. -/
abbrev k1_score (x0 : Vec Ideal S1024x1024 .f32) (x1 : Vec Ideal S512x1024 .f32) (p : Fin 1024) : Fin 512 → EReal :=
  fun cc => ∑ d' : Fin 1024, x0 (ix2 p d') * x1 (ix2 cc d')

/-- The scores: the query block times the transposed key tile, at (p, c). -/
theorem k1_pay7_apply (x0 : Vec Ideal S1024x1024 .f32) (x1 : Vec Ideal S512x1024 .f32) (p : Fin 1024) (cc : Fin 512) :
    k1_pay7 x0 x1 (ix2 p cc) = ∑ d' : Fin 1024, x0 (ix2 p d') * x1 (ix2 cc d') := by
  unfold k1_pay7
  refine (Cert.FirstAxis.cols_matmul_prec dot_S1024x1024_S1024x512_S1024x512_1_0_0_1_n_n_wf dot_S1024x1024_S1024x512_S1024x512_1_0_0_1_n_n rfl (some .fp32)
    (shapeCast S1024x1024 x0 shapeCasts_S1024x1024_S1024x1024)
    (transpose S1024x512 [1, 0] (shapeCast S512x1024 x1 shapeCasts_S512x1024_S512x1024) transposes_S512x1024_p1_0_S1024x512) p cc).trans ?_
  refine Finset.sum_congr rfl fun k _ => ?_
  rw [transpose_ix2_apply, shapeCast_self, shapeCast_self]

/-- The new maximum of row p: the old one against the largest score of the row. -/
theorem k1_pay8_apply (x0 : Vec Ideal S1024x1024 .f32) (x1 : Vec Ideal S512x1024 .f32) (sm : Vec Ideal S1024x1 .f32) (p : Fin 1024) :
    k1_pay8 x0 x1 sm (ix2 p 0) = max (sm (ix2 p 0)) ((Finset.univ : Finset (Fin 512)).fold max ⊥ (k1_score x0 x1 p)) := by
  unfold k1_pay8
  refine congrArg (max (sm (ix2 p 0))) ?_
  refine (RowReduce.shapeCast_column_apply _ shapeCasts_S1024_S1024x1 p 0).trans ?_
  refine (RowReduce.multiReduction_max_row (k1_pay7 x0 x1) 0xFF800000#32 reduces_S1024x512_S1024 (.inl rfl) rfl p).trans ?_
  unfold RowReduce.foldMax
  rw [k1_negInf_word]
  exact congrArg (fun f => Finset.fold max (⊥ : EReal) f (Finset.univ : Finset (Fin 512))) (funext fun cc => k1_pay7_apply x0 x1 p cc)

/-- The rescaling factor of row p: exp (old maximum - new maximum). -/
theorem k1_pay9_apply (x0 : Vec Ideal S1024x1024 .f32) (x1 : Vec Ideal S512x1024 .f32) (sm sm' : Vec Ideal S1024x1 .f32) (p : Fin 1024) :
    k1_pay9 x0 x1 sm sm' (ix2 p 0) = Ideal.exp (sm' (ix2 p 0) - k1_pay8 x0 x1 sm (ix2 p 0)) := rfl

/-- The weight of key c for row p: exp (score - new maximum of the row). -/
theorem k1_pay10_apply (x0 : Vec Ideal S1024x1024 .f32) (x1 : Vec Ideal S512x1024 .f32) (sm : Vec Ideal S1024x1 .f32) (p : Fin 1024) (cc : Fin 512) :
    k1_pay10 x0 x1 sm (ix2 p cc) = Ideal.exp (k1_score x0 x1 p cc - k1_pay8 x0 x1 sm (ix2 p 0)) := by
  unfold k1_pay10
  show Ideal.exp (k1_pay7 x0 x1 (ix2 p cc) - broadcastTo S1024x512 (k1_pay8 x0 x1 sm) broadcasts_S1024x1_S1024x512 (ix2 p cc)) = _
  rw [RowReduce.broadcastTo_column_apply, k1_pay7_apply]

/-- The new denominator of row p: the old one rescaled plus the row's weights summed. -/
theorem k1_pay11_apply (x0 : Vec Ideal S1024x1024 .f32) (x1 : Vec Ideal S512x1024 .f32) (sm sm' sl : Vec Ideal S1024x1 .f32) (p : Fin 1024) :
    k1_pay11 x0 x1 sm sm' sl (ix2 p 0) = k1_pay9 x0 x1 sm sm' (ix2 p 0) * sl (ix2 p 0) + ∑ cc : Fin 512, k1_pay10 x0 x1 sm (ix2 p cc) := by
  unfold k1_pay11
  rw [shapeCast_self]
  refine congrArg (k1_pay9 x0 x1 sm sm' (ix2 p 0) * sl (ix2 p 0) + ·) ?_
  refine (RowReduce.shapeCast_column_apply _ shapeCasts_S1024_S1024x1 p 0).trans ?_
  exact RowReduce.multiReduction_add_row (k1_pay10 x0 x1 sm) 0x00000000#32 reduces_S1024x512_S1024 (.inl rfl) rfl p

/-- The old numerator rescaled, at (p, d). -/
theorem k1_pay12_apply (x0 : Vec Ideal S1024x1024 .f32) (x1 : Vec Ideal S512x1024 .f32) (sm sm' : Vec Ideal S1024x1 .f32) (sa : Vec Ideal S1024x1024 .f32)
    (p : Fin 1024) (d : Fin 1024) :
    k1_pay12 x0 x1 sm sm' sa (ix2 p d) = k1_pay9 x0 x1 sm sm' (ix2 p 0) * sa (ix2 p d) := by
  unfold k1_pay12
  show broadcastTo S1024x1024 (k1_pay9 x0 x1 sm sm') broadcasts_S1024x1_S1024x1024 (ix2 p d) * sa (ix2 p d) = _
  rw [RowReduce.broadcastTo_column_apply]

/-- The tile's contribution to the numerator at (p, d): the weights of row p against column d of the values. -/
theorem k1_pay13_apply (x0 : Vec Ideal S1024x1024 .f32) (x1 : Vec Ideal S512x1024 .f32) (x2 : Vec Ideal S512x1024 .bf16) (sm : Vec Ideal S1024x1 .f32)
    (p : Fin 1024) (d : Fin 1024) :
    k1_pay13 x0 x1 x2 sm (ix2 p d) = ∑ cc : Fin 512, k1_pay10 x0 x1 sm (ix2 p cc) * x2 (ix2 cc d) := by
  unfold k1_pay13
  refine (Cert.FirstAxis.cols_matmul_prec dot_S1024x512_S512x1024_S1024x1024_1_0_0_1_n_n_wf dot_S1024x512_S512x1024_S1024x1024_1_0_0_1_n_n rfl none
    (truncf .bf16 (k1_pay10 x0 x1 sm) bitsLt_bf16_f32) (shapeCast S512x1024 x2 shapeCasts_S512x1024_S512x1024) p d).trans ?_
  rw [shapeCast_self]
  rfl

/-- The new numerator: the two parts added. -/
theorem k1_pay1_apply (v31 v33 : FVec Ideal S1024x1024 .f32) (i : S1024x1024.Idx) : k1_pay1 v31 v33 i = v31 i + v33 i := by
  unfold k1_pay1
  rw [shapeCast_self]
  rfl

/-- The new maximum is stored as it is. -/
theorem k1_pay2_apply (v14 : FVec Ideal S1024x1 .f32) (i : S1024x1.Idx) : k1_pay2 v14 i = v14 i := by
  unfold k1_pay2
  rw [shapeCast_self]

/-- The result at (p, d): the numerator over the denominator of row p. -/
theorem k1_pay3_apply (v44 : Vec Ideal S1024x1024 .f32) (v45 : Vec Ideal S1024x1 .f32) (p : Fin 1024) (d : Fin 1024) :
    k1_pay3 v44 v45 (ValueIdx.ix2 p d) = Ideal.div (v44 (ValueIdx.ix2 p d)) (v45 (ValueIdx.ix2 p 0)) := by
  unfold k1_pay3
  show Ideal.div (v44 (ix2 p d)) (broadcastTo S1024x1024 v45 broadcasts_S1024x1_S1024x1024 (ix2 p d)) = _
  rw [RowReduce.broadcastTo_column_apply]

/-- The starting maximum is the bottom element, -/
theorem k1_pay4_apply (i : S1024x1.Idx) : (k1_pay4 (F := Ideal)) i = (⊥ : EReal) := by
  unfold k1_pay4
  rw [shapeCast_self]
  exact k1_negInf_word

/-- the starting denominator is zero, -/
theorem k1_pay5_apply (i : S1024x1.Idx) : (k1_pay5 (F := Ideal)) i = (0 : EReal) := by
  unfold k1_pay5
  rw [shapeCast_self]
  exact Ideal.ofBits_zero_f32

/-- and so is the starting numerator. -/
theorem k1_pay6_apply (i : S1024x1024.Idx) : (k1_pay6 (F := Ideal)) i = (0 : EReal) := by
  unfold k1_pay6
  rw [shapeCast_self]
  exact Ideal.ofBits_zero_f32

/-- The state a row block starts from. -/
theorem k1_reset_apply (p : Fin 1024) (d : Fin 1024) : ((k1_pay4 (F := Ideal)) (ValueIdx.ix2 p 0), (k1_pay5 (F := Ideal)) (ValueIdx.ix2 p 0), (k1_pay6 (F := Ideal)) (ValueIdx.ix2 p d)) = ((⊥ : EReal), (0 : EReal), (0 : EReal)) := by
  rw [k1_pay4_apply, k1_pay5_apply, k1_pay6_apply]

/-- What a step stores for row p and column d is one step of the running softmax on the tile's scores of row p and
    column d of the tile's values, from what the row's state held. -/
theorem k1_step_apply (x0 : Vec Ideal S1024x1024 .f32) (x1 : Vec Ideal S512x1024 .f32) (x2 : Vec Ideal S512x1024 .bf16) (sm sl : Vec Ideal S1024x1 .f32) (sa : Vec Ideal S1024x1024 .f32) (p : Fin 1024) (d : Fin 1024) :
    (k1_pay2 (k1_pay8 x0 x1 sm) (ValueIdx.ix2 p 0), k1_pay11 x0 x1 sm sm sl (ValueIdx.ix2 p 0), k1_pay1 (k1_pay12 x0 x1 sm sm sa) (k1_pay13 x0 x1 x2 sm) (ValueIdx.ix2 p d))
      = OnlineSoftmax.step (fun cc : Fin 512 => ∑ d' : Fin 1024, x0 (ValueIdx.ix2 p d') * x1 (ValueIdx.ix2 cc d')) (fun cc : Fin 512 => x2 (ValueIdx.ix2 cc d)) (sm (ValueIdx.ix2 p 0), sl (ValueIdx.ix2 p 0), sa (ValueIdx.ix2 p d)) := by
  have h8 := k1_pay8_apply x0 x1 sm p
  have h10 : ∀ cc : Fin 512, k1_pay10 x0 x1 sm (ix2 p cc)
      = Ideal.exp (k1_score x0 x1 p cc - max (sm (ix2 p 0)) ((Finset.univ : Finset (Fin 512)).fold max ⊥ (k1_score x0 x1 p))) :=
    fun cc => by rw [k1_pay10_apply, h8]
  have h9 : k1_pay9 x0 x1 sm sm (ix2 p 0)
      = Ideal.exp (sm (ix2 p 0) - max (sm (ix2 p 0)) ((Finset.univ : Finset (Fin 512)).fold max ⊥ (k1_score x0 x1 p))) := by
    rw [k1_pay9_apply, h8]
  have hm : k1_pay2 (k1_pay8 x0 x1 sm) (ix2 p 0) = max (sm (ix2 p 0)) ((Finset.univ : Finset (Fin 512)).fold max ⊥ (k1_score x0 x1 p)) := by
    rw [k1_pay2_apply, h8]
  have hl : k1_pay11 x0 x1 sm sm sl (ix2 p 0)
      = Ideal.exp (sm (ix2 p 0) - max (sm (ix2 p 0)) ((Finset.univ : Finset (Fin 512)).fold max ⊥ (k1_score x0 x1 p))) * sl (ix2 p 0)
        + ∑ cc : Fin 512, Ideal.exp (k1_score x0 x1 p cc - max (sm (ix2 p 0)) ((Finset.univ : Finset (Fin 512)).fold max ⊥ (k1_score x0 x1 p))) := by
    rw [k1_pay11_apply, h9]
    exact congrArg (_ + ·) (Finset.sum_congr rfl fun cc _ => h10 cc)
  have ha : k1_pay1 (k1_pay12 x0 x1 sm sm sa) (k1_pay13 x0 x1 x2 sm) (ix2 p d)
      = Ideal.exp (sm (ix2 p 0) - max (sm (ix2 p 0)) ((Finset.univ : Finset (Fin 512)).fold max ⊥ (k1_score x0 x1 p))) * sa (ix2 p d)
        + ∑ cc : Fin 512, Ideal.exp (k1_score x0 x1 p cc - max (sm (ix2 p 0)) ((Finset.univ : Finset (Fin 512)).fold max ⊥ (k1_score x0 x1 p))) * x2 (ix2 cc d) := by
    rw [k1_pay1_apply, k1_pay12_apply, k1_pay13_apply, h9]
    exact congrArg (_ + ·) (Finset.sum_congr rfl fun cc _ => by rw [h10 cc])
  unfold OnlineSoftmax.step
  exact congrArg₂ Prod.mk hm (congrArg₂ Prod.mk hl ha)

end Cert.KernelIdeal.Hand

end
-- ==== Proof.Value1Steps.lean ====
/-
  The attention kernel's scratch, point by point, is the running (tile-by-tile) softmax-weighted average.

  Point t = 8 qi + ki of the grid is handed rows 1024 qi .. 1024 qi + 1023 of the query array and rows
  512 ki .. 512 ki + 511 of the key and value arrays.  For block row p and column d the scores the body forms,
  the sum over d' of q(1024 qi + p, d') k(512 ki + cc, d') for cc < 512, are tile ki of the scores of query row
  1024 qi + p, and the values it reads are tile ki of column d of the value array.  By the body's arithmetic the
  three scratch entries (running maximum and denominator of row p, running numerator at (p, d)) after the point
  are one step of the running form applied to the entries before it, and the first key tile starts from the
  reset state (-infinity, 0, 0).  So by induction on the point the entries after point t are the running form of
  query row 1024 qi + p after the key tiles 0 .. ki; at ki = 7 the body stores numerator over denominator in the
  output block: the running quotient after all 8 tiles.
-/
import proofs.«174663_j13460427505739_2_alg».proof.Proof.Value1Cases
import proofs.«174663_j13460427505739_2_alg».proof.Proof.Pay1
import proofs.«174663_j13460427505739_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The printed index maps, decided over the 32 grid points -/

/-- At point t = 8 qi + ki the query and output blocks are block qi along the rows, the key and value blocks block ki;
    every other block index is 0. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-! ## The input blocks as entries of the arrays found on entry -/

/-- The query block of point t at (p, k) is the query array at (1024 (t / 8) + p, k). -/
theorem qblock1_apply (c : Dev nD) (t : Fin cfg1.N) (p : Fin 1024) (k : Fin 1024) (r : Fin 4096)
    (hr : r.val = 1024 * (t.val / 8) + p.val) :
    (iblk1 V c 0 t : Vec Ideal S1024x1024 .f32) (ix2 p k) = (V c main_v1_0 : S4096x1024.Idx → EReal) (ix2 r k) := by
  obtain ⟨h0, h1, -⟩ := idx_facts1 t
  unfold iblk1
  rw [View.read_apply]
  show V c main_v1_0 _ = V c main_v1_0 _
  congr 1
  funext a
  apply Fin.ext
  match a with
  | ⟨0, _⟩ => show win1_0.index t 0 * 1024 + 1 * p.val = r.val; rw [h0, hr]; omega
  | ⟨1, _⟩ => show win1_0.index t 1 * 1024 + 1 * k.val = k.val; rw [h1]; omega

/-- The key block of point t at (cc, k) is the key array at (512 (t mod 8) + cc, k). -/
theorem kblock1_apply (c : Dev nD) (t : Fin cfg1.N) (cc : Fin 512) (k : Fin 1024) (j : Fin 4096)
    (hj : j.val = (t.val % 8) * 512 + cc.val) :
    (iblk1 V c 1 t : Vec Ideal S512x1024 .f32) (ix2 cc k) = (V c main_v1_1 : S4096x1024.Idx → EReal) (ix2 j k) := by
  obtain ⟨-, -, h0, h1, -⟩ := idx_facts1 t
  unfold iblk1
  rw [View.read_apply]
  show V c main_v1_1 _ = V c main_v1_1 _
  congr 1
  funext a
  apply Fin.ext
  match a with
  | ⟨0, _⟩ => show win1_1.index t 0 * 512 + 1 * cc.val = j.val; rw [h0, hj]; omega
  | ⟨1, _⟩ => show win1_1.index t 1 * 1024 + 1 * k.val = k.val; rw [h1]; omega

/-- The value block of point t at (cc, k) is the value array at (512 (t mod 8) + cc, k). -/
theorem vblock1_apply (c : Dev nD) (t : Fin cfg1.N) (cc : Fin 512) (k : Fin 1024) (j : Fin 4096)
    (hj : j.val = (t.val % 8) * 512 + cc.val) :
    (iblk1 V c 2 t : Vec Ideal S512x1024 .bf16) (ix2 cc k) = (V c main_v1_2 : S4096x1024.Idx → EReal) (ix2 j k) := by
  obtain ⟨-, -, -, -, h0, h1, -⟩ := idx_facts1 t
  unfold iblk1
  rw [View.read_apply]
  show V c main_v1_2 _ = V c main_v1_2 _
  congr 1
  funext a
  apply Fin.ext
  match a with
  | ⟨0, _⟩ => show win1_2.index t 0 * 512 + 1 * cc.val = j.val; rw [h0, hj]; omega
  | ⟨1, _⟩ => show win1_2.index t 1 * 1024 + 1 * k.val = k.val; rw [h1]; omega

/-! ## The point's tile of scores and of values -/

/-- The scores the body forms at point t for block row p are tile t mod 8 of the scores of query row 1024 (t / 8) + p. -/
theorem tileScore1 (c : Dev nD) (t : Fin cfg1.N) (p : Fin 1024) (r : Fin 4096) (hr : r.val = 1024 * (t.val / 8) + p.val)
    (x0 : Vec Ideal S1024x1024 .f32) (x1 : Vec Ideal S512x1024 .f32) (e0 : x0 = iblk1 V c 0 t) (e1 : x1 = iblk1 V c 1 t) :
    (fun cc : Fin 512 => ∑ d' : Fin 1024, x0 (ix2 p d') * x1 (ix2 cc d'))
      = OnlineSoftmax.tiles (Attn.scoreQ (Attn.mat (V c main_v1_0)) (Attn.mat (V c main_v1_1)) r) (t.val % 8) := by
  subst e0 e1
  have hk : t.val % 8 < 8 := Nat.mod_lt _ (by norm_num)
  unfold OnlineSoftmax.tiles
  rw [dif_pos hk]
  funext cc
  unfold Attn.scoreQ
  refine Finset.sum_congr rfl fun d' _ => ?_
  rw [qblock1_apply V c t p d' r hr, kblock1_apply V c t cc d' (Attn.key ⟨t.val % 8, hk⟩ cc) rfl]
  rfl

/-- The values the body reads at point t in column d are tile t mod 8 of column d of the value array. -/
theorem tileVal1 (c : Dev nD) (t : Fin cfg1.N) (d : Fin 1024) (x2 : Vec Ideal S512x1024 .bf16) (e2 : x2 = iblk1 V c 2 t) :
    (fun cc : Fin 512 => x2 (ix2 cc d))
      = OnlineSoftmax.tiles (Attn.vals (Attn.mat (V c main_v1_2)) d) (t.val % 8) := by
  subst e2
  have hk : t.val % 8 < 8 := Nat.mod_lt _ (by norm_num)
  unfold OnlineSoftmax.tiles
  rw [dif_pos hk]
  funext cc
  unfold Attn.vals
  rw [vblock1_apply V c t cc d (Attn.key ⟨t.val % 8, hk⟩ cc) rfl]
  rfl

/-! ## The scratch state of one row and column, point by point -/

/-- The scratch state of block row p and column d: (running maximum, running denominator, running numerator). -/
abbrev stateAt (o : Vec Ideal S1024x1024 .f32 × Vec Ideal S1024x1 .f32 × Vec Ideal S1024x1 .f32 × Vec Ideal S1024x1024 .f32) (p d : Fin 1024) : EReal × EReal × EReal :=
  (o.2.1 (ix2 p 0), o.2.2.1 (ix2 p 0), o.2.2.2 (ix2 p d))

/-- One point folds its key tile into the state of row p, column d: one step of the running form on tile t mod 8. -/
theorem fold_point (c : Dev nD) (t : Fin cfg1.N) (p d : Fin 1024) (r : Fin 4096) (hr : r.val = 1024 * (t.val / 8) + p.val)
    (sm sl : Vec Ideal S1024x1 .f32) (sa : Vec Ideal S1024x1024 .f32) :
    (newMax (iblk1 V c 0 t) (iblk1 V c 1 t) sm (ix2 p 0), newDen (iblk1 V c 0 t) (iblk1 V c 1 t) sm sl (ix2 p 0), newNum (iblk1 V c 0 t) (iblk1 V c 1 t) (iblk1 V c 2 t) sm sa (ix2 p d))
      = OnlineSoftmax.step (OnlineSoftmax.tiles (Attn.scoreQ (Attn.mat (V c main_v1_0)) (Attn.mat (V c main_v1_1)) r) (t.val % 8)) (OnlineSoftmax.tiles (Attn.vals (Attn.mat (V c main_v1_2)) d) (t.val % 8))
          (sm (ix2 p 0), sl (ix2 p 0), sa (ix2 p d)) :=
  (k1_step_apply (iblk1 V c 0 t) (iblk1 V c 1 t) (iblk1 V c 2 t) sm sl sa p d).trans
    (congrArg₂ (fun s v => OnlineSoftmax.step s v (sm (ix2 p 0), sl (ix2 p 0), sa (ix2 p d))) (tileScore1 V c t p r hr (iblk1 V c 0 t) (iblk1 V c 1 t) rfl rfl) (tileVal1 V c t d (iblk1 V c 2 t) rfl))

/-- After a first-key-tile point the state is the running form after one tile. -/
theorem state_A (c : Dev nD) (t : Fin cfg1.N) (h0 : t.val % 8 = 0) (p d : Fin 1024) (r : Fin 4096)
    (hr : r.val = 1024 * (t.val / 8) + p.val) :
    stateAt (outsAt1 V c t.val t.isLt) p d
      = OnlineSoftmax.run (OnlineSoftmax.tiles (Attn.scoreQ (Attn.mat (V c main_v1_0)) (Attn.mat (V c main_v1_1)) r)) (OnlineSoftmax.tiles (Attn.vals (Attn.mat (V c main_v1_2)) d)) (t.val % 8 + 1) := by
  have hc0 : cond1_0 (grid1.coords t) := (hcond1_0 t).mpr h0
  have hc1 : ¬cond1_1 (grid1.coords t) := fun h => by have := (hcond1_1 t).mp h; omega
  rw [outsAt1_A V c t h0 hc0 hc1]
  dsimp only [stateAt]
  rw [leftA_max, leftA_den, leftA_num, fold_point V c t p d r hr, OnlineSoftmax.run_succ, h0, k1_reset_apply,
    OnlineSoftmax.run_zero]

/-- After a middle point the state is one more step of the running form on the state before. -/
theorem state_B (c : Dev nD) (t : Fin cfg1.N) (h0 : ¬t.val % 8 = 0) (h7 : ¬t.val % 8 = 7) (p d : Fin 1024) (r : Fin 4096)
    (hr : r.val = 1024 * (t.val / 8) + p.val)
    (ih : stateAt (outsAt1 V c (t.val - 1) (Nat.lt_of_le_of_lt (Nat.sub_le _ _) t.isLt)) p d
      = OnlineSoftmax.run (OnlineSoftmax.tiles (Attn.scoreQ (Attn.mat (V c main_v1_0)) (Attn.mat (V c main_v1_1)) r)) (OnlineSoftmax.tiles (Attn.vals (Attn.mat (V c main_v1_2)) d)) ((t.val - 1) % 8 + 1)) :
    stateAt (outsAt1 V c t.val t.isLt) p d
      = OnlineSoftmax.run (OnlineSoftmax.tiles (Attn.scoreQ (Attn.mat (V c main_v1_0)) (Attn.mat (V c main_v1_1)) r)) (OnlineSoftmax.tiles (Attn.vals (Attn.mat (V c main_v1_2)) d)) (t.val % 8 + 1) := by
  have hc0 : ¬cond1_0 (grid1.coords t) := fun h => h0 ((hcond1_0 t).mp h)
  have hc1 : ¬cond1_1 (grid1.coords t) := fun h => h7 ((hcond1_1 t).mp h)
  have hk : (t.val - 1) % 8 + 1 = t.val % 8 := by omega
  rw [hk] at ih
  rw [outsAt1_B V c t h0 h7 hc0 hc1]
  dsimp only [stateAt] at ih ⊢
  rw [leftB_max, leftB_den, leftB_num, fold_point V c t p d r hr, OnlineSoftmax.run_succ, ih]

/-- The same after a last-key-tile point. -/
theorem state_C (c : Dev nD) (t : Fin cfg1.N) (h0 : ¬t.val % 8 = 0) (h7 : t.val % 8 = 7) (p d : Fin 1024) (r : Fin 4096)
    (hr : r.val = 1024 * (t.val / 8) + p.val)
    (ih : stateAt (outsAt1 V c (t.val - 1) (Nat.lt_of_le_of_lt (Nat.sub_le _ _) t.isLt)) p d
      = OnlineSoftmax.run (OnlineSoftmax.tiles (Attn.scoreQ (Attn.mat (V c main_v1_0)) (Attn.mat (V c main_v1_1)) r)) (OnlineSoftmax.tiles (Attn.vals (Attn.mat (V c main_v1_2)) d)) ((t.val - 1) % 8 + 1)) :
    stateAt (outsAt1 V c t.val t.isLt) p d
      = OnlineSoftmax.run (OnlineSoftmax.tiles (Attn.scoreQ (Attn.mat (V c main_v1_0)) (Attn.mat (V c main_v1_1)) r)) (OnlineSoftmax.tiles (Attn.vals (Attn.mat (V c main_v1_2)) d)) (t.val % 8 + 1) := by
  have hc0 : ¬cond1_0 (grid1.coords t) := fun h => h0 ((hcond1_0 t).mp h)
  have hc1 : cond1_1 (grid1.coords t) := (hcond1_1 t).mpr h7
  have hk : (t.val - 1) % 8 + 1 = t.val % 8 := by omega
  rw [hk] at ih
  rw [outsAt1_C V c t h0 h7 hc0 hc1]
  dsimp only [stateAt] at ih ⊢
  rw [leftC_max, leftC_den, leftC_num, fold_point V c t p d r hr, OnlineSoftmax.run_succ, ih]

/-- After point n = 8 qi + ki the state of block row p, column d is the running form of query row 1024 qi + p after
    the key tiles 0 .. ki: by induction on the point. -/
theorem state_eq_run (c : Dev nD) (p d : Fin 1024) : ∀ (n : ℕ) (hn : n < cfg1.N) (r : Fin 4096) (hr : r.val = 1024 * (n / 8) + p.val),
    stateAt (outsAt1 V c n hn) p d
      = OnlineSoftmax.run (OnlineSoftmax.tiles (Attn.scoreQ (Attn.mat (V c main_v1_0)) (Attn.mat (V c main_v1_1)) r)) (OnlineSoftmax.tiles (Attn.vals (Attn.mat (V c main_v1_2)) d)) (n % 8 + 1)
  | 0, hn, r, hr => state_A V c ⟨0, hn⟩ (Nat.zero_mod 8) p d r hr
  | n + 1, hn, r, hr => by
    by_cases h0 : (n + 1) % 8 = 0
    · exact state_A V c ⟨n + 1, hn⟩ h0 p d r hr
    · have ih := state_eq_run c p d n (Nat.lt_of_succ_lt hn) r (by omega)
      by_cases h7 : (n + 1) % 8 = 7
      · exact state_C V c ⟨n + 1, hn⟩ h0 h7 p d r hr ih
      · exact state_B V c ⟨n + 1, hn⟩ h0 h7 p d r hr ih

/-! ## The output block at a last-key-tile point -/

/-- The output block a last-key-tile point stores is, entry by entry, the numerator it leaves over the denominator it leaves. -/
theorem out_of_state (c : Dev nD) (t : Fin cfg1.N) (hc0 : ¬cond1_0 (grid1.coords t)) (hc1 : cond1_1 (grid1.coords t))
    (o : Vec Ideal S1024x1024 .f32 × Vec Ideal S1024x1 .f32 × Vec Ideal S1024x1 .f32 × Vec Ideal S1024x1024 .f32) (p d : Fin 1024) :
    (leftC V c t hc0 hc1 o).1 (ix2 p d)
      = Ideal.div ((leftC V c t hc0 hc1 o).2.2.2 (ix2 p d)) ((leftC V c t hc0 hc1 o).2.2.1 (ix2 p 0)) := by
  rw [leftC_out, k1_pay3_apply, leftC_num, leftC_den]

/-- The output block's entry (p, d) after a last-key-tile point t is the running quotient after 8 tiles for query row
    1024 (t / 8) + p. -/
theorem outsAt1_out (c : Dev nD) (t : Fin cfg1.N) (h7 : t.val % 8 = 7) (p : Fin 1024) (d : Fin 1024) :
    (outsAt1 (F := Ideal) V c t.val t.isLt).1 (ValueIdx.ix2 p d)
      = OnlineSoftmax.onlineOut (OnlineSoftmax.tiles (Attn.scoreQ (Attn.mat (V c main_v1_0)) (Attn.mat (V c main_v1_1)) ⟨1024 * (t.val / 8) + p.val, by have := t.isLt; have hN : cfg1.N = 32 := N_1; have := p.isLt; omega⟩)) (OnlineSoftmax.tiles (Attn.vals (Attn.mat (V c main_v1_2)) d)) 8 := by
  have h0 : ¬t.val % 8 = 0 := by omega
  have hc0 : ¬cond1_0 (grid1.coords t) := fun h => h0 ((hcond1_0 t).mp h)
  have hc1 : cond1_1 (grid1.coords t) := (hcond1_1 t).mpr h7
  have hst := state_eq_run V c p d t.val t.isLt ⟨1024 * (t.val / 8) + p.val, by have := t.isLt; have hN : cfg1.N = 32 := N_1; have := p.isLt; omega⟩ rfl
  have h8 : t.val % 8 + 1 = 8 := by omega
  rw [h8, outsAt1_C V c t h0 h7 hc0 hc1] at hst
  rw [outsAt1_C V c t h0 h7 hc0 hc1, out_of_state]
  unfold OnlineSoftmax.onlineOut
  rw [← hst]

end Cert.KernelIdeal.Hand

end
-- ==== Proof.Value1.lean ====
/-
  The attention region's output array, from its blocks.

  The region writes the output block back at the last key tile of each query tile and nowhere else: at the
  point t with t mod 8 = 7 the block holds, at (p, d), the running form's numerator over denominator after
  the 8 key tiles for query row 1024 (t / 8) + p and value column d.  The four written blocks are rows
  1024 qi .. 1024 qi + 1023 of the array, qi = 0 .. 3, so together they cover it: the array ends holding
  that quotient at every (r, d).
-/
import proofs.«174663_j13460427505739_2_alg».proof.Proof.Region1
import proofs.«174663_j13460427505739_2_alg».proof.Proof.Value1Steps
import proofs.«174663_j13460427505739_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- What the attention region leaves at (r, d): the running form's quotient after the 8 key tiles. -/
def attnOut (c : Dev nD) : Attn.Mat 4096 1024 := fun r d =>
  OnlineSoftmax.onlineOut (OnlineSoftmax.tiles (Attn.scoreQ (Attn.mat (V c main_v1_0)) (Attn.mat (V c main_v1_1)) r))
    (OnlineSoftmax.tiles (Attn.vals (Attn.mat (V c main_v1_2)) d)) 8

/-- The output window's block index at point t: the query tile t / 8 on the rows, 0 on the columns. -/
theorem index1_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

/-- What a flushing point writes back is its block of the quotient array. -/
theorem flushed1_3_eq (c : Dev nD) (t : Fin cfg1.N) (hf : (cfg1.win 3).flush t = true) :
    (dat1 (F := Ideal) V c).flushed 3 t = ((cfg1.win 3).blk t).view.read (Elt Ideal) (Attn.arr (attnOut V c)) := by
  have h7 : t.val % 8 = 7 := (flush1_3 t).mp hf
  show (cfg1.win 3).cut (grid1.coords t) ((dat1 (F := Ideal) V c).after 3 t) = _
  rw [after1_3]
  funext j
  obtain ⟨p, d, rfl⟩ : ∃ (p : Fin 1024) (d : Fin 1024), j = ValueIdx.ix2 p d := ⟨j 0, j 1, ValueIdx.eq_ix2 j⟩
  show (outsAt1 (F := Ideal) V c t.val t.isLt).1 (ValueIdx.ix2 p d)
    = Attn.arr (attnOut V c) (((cfg1.win 3).blk t).view.emb (ValueIdx.ix2 p d))
  rw [outsAt1_out V c t h7 p d]
  obtain ⟨e0, e1⟩ := index1_3 t
  have hp := p.isLt
  have hd := d.isLt
  have r0 : (((cfg1.win 3).blk t).view.emb (ValueIdx.ix2 p d)) 0
      = (⟨1024 * (t.val / 8) + p.val, by have := t.isLt; have hN : cfg1.N = 32 := N_1; omega⟩ : Fin 4096) := by
    apply Fin.ext
    show win1_3.index t (0 : Fin 2) * 1024 + 1 * p.val = 1024 * (t.val / 8) + p.val
    omega
  have r1 : (((cfg1.win 3).blk t).view.emb (ValueIdx.ix2 p d)) 1 = d := by
    apply Fin.ext
    show win1_3.index t (1 : Fin 2) * 1024 + 1 * d.val = d.val
    omega
  show _ = attnOut V c ((((cfg1.win 3).blk t).view.emb (ValueIdx.ix2 p d)) 0) ((((cfg1.win 3).blk t).view.emb (ValueIdx.ix2 p d)) 1)
  rw [r0, r1]
  rfl

/-- An index of the array is in point t's block iff each coordinate is in the block's range on its axis. -/
theorem mem_blk1_3 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- Every index of the array is in the block of a flushing point: row r in that of the last key tile of query tile r / 1024. -/
theorem cover1_3 (i : S4096x1024.Idx) :
    ∃ t : Fin cfg1.N, (cfg1.win 3).flush t = true ∧ i ∈ ((cfg1.win 3).blk t).view.set := by
  have hN : cfg1.N = 32 := N_1
  have hi0 : (i 0).val < 4096 := (i 0).isLt
  have hi1 : (i 1).val < 1024 := (i 1).isLt
  obtain ⟨t, ht⟩ : ∃ t : Fin cfg1.N, t.val = 8 * ((i 0).val / 1024) + 7 := ⟨⟨8 * ((i 0).val / 1024) + 7, by omega⟩, rfl⟩
  refine ⟨t, (flush1_3 t).mpr (by omega), ?_⟩
  rw [mem_blk1_3]
  obtain ⟨e0, e1⟩ := index1_3 t
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- The output array after the attention region: the running form's quotient at every (r, d). -/
theorem arrAt1_3 (c : Dev nD) :
    (dat1 (F := Ideal) V c).arrAt 3 cfg1.N
      = Attn.arr (fun r d => OnlineSoftmax.onlineOut
          (OnlineSoftmax.tiles (Attn.scoreQ (Attn.mat (V c main_v1_0)) (Attn.mat (V c main_v1_1)) r))
          (OnlineSoftmax.tiles (Attn.vals (Attn.mat (V c main_v1_2)) d)) 8) :=
  (dat1 (F := Ideal) V c).arrAt_eq_of_cover 3 (Attn.arr (attnOut V c)) (flushed1_3_eq V c) cover1_3

end Cert.KernelIdeal.Hand

end
-- ==== Proof.KernelValue.lean ====
/-
  What the kernel program leaves in its result array, from the launch memory.

  The conversion before the first kernel writes none of the first three arguments and, on the
  extended reals, leaves the value weights as they were (a change of float format is the identity);
  the projection region leaves q·(1/32 word), k and v in its three output arrays; the attention region
  folds them tile by tile.  Substituting one into the next gives the kernel's specification.
-/
import proofs.«174663_j13460427505739_2_alg».proof.Proof.Run
import proofs.«174663_j13460427505739_2_alg».proof.Proof.Value0
import proofs.«174663_j13460427505739_2_alg».proof.Proof.Value1
import proofs.«174663_j13460427505739_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The conversion writes none of the first three arguments: the projection region finds them as launched. -/
theorem V1_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The converted value weights: on the extended reals a change of float format is the identity. -/
theorem V1_v0 (c : Dev nD) : (V1 m ρ c main_v0 : S1024x1024.Idx → EReal) = (m ((c : Thread nD τ).loc main_arg3) : S1024x1024.Idx → EReal) := by
  show StableHlo.after hostOps0 (W0 m ρ c) (Proc.devRef .tc main_v0) = _
  dsimp only [hostOps0]
  after_results
  rfl

/-- A matrix laid out as an array and read back is itself. -/
theorem mat_arr {a b : ℕ} (f : Attn.Mat a b) : Attn.mat (Attn.arr f) = f := rfl

/-- What the attention pipeline leaves in the result array, from the launch memory: the projections of the input by the
    three weight matrices, the query projection scaled by the word of 1/32, folded tile by tile. -/
theorem kernel_value (c : Dev nD) :
    (dat1 (F := Ideal) (V2 m ρ) c).arrAt 3 cfg1.N
      = Attn.arr (Attn.kernelOut (Attn.mat (m ((c : Thread nD τ).loc main_arg0))) (Attn.mat (m ((c : Thread nD τ).loc main_arg1))) (Attn.mat (m ((c : Thread nD τ).loc main_arg2))) (Attn.mat (m ((c : Thread nD τ).loc main_arg3)))) := by
  have e0 : V2 m ρ c main_v1_0 = (dat0 (F := Ideal) (V1 m ρ) c).arrAt 4 cfg0.N := (hF0 m ρ c 4).symm
  have e1 : V2 m ρ c main_v1_1 = (dat0 (F := Ideal) (V1 m ρ) c).arrAt 5 cfg0.N := (hF0 m ρ c 5).symm
  have e2 : V2 m ρ c main_v1_2 = (dat0 (F := Ideal) (V1 m ρ) c).arrAt 6 cfg0.N := (hF0 m ρ c 6).symm
  rw [arrAt1_3 (V2 m ρ) c, e0, e1, e2, arrAt0_4, arrAt0_5, arrAt0_6]
  simp only [mat_arr]
  rw [V1_arg0, V1_arg1, V1_arg2, V1_v0]
  rfl

end Cert.KernelIdeal.Hand

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.RefRow.lean ====
/-
  One row of a whole-row softmax-weighted average, regrouped by tiles.

  For scores s and values v over 4096 keys, let M be the maximum of the scores (folded from the bottom
  element) and L = 0 + the sum over the keys k of exp (s k - M).  Then the sum over the keys j of
  (exp (s j - M) / L) * v j is the whole-row form over 8 tiles of 512 columns, key j = 512 t + c.
  The sums are regrouped by blocks of consecutive keys, and the two maxima are equal because they have
  the same upper bounds; no finiteness is used.
-/
import proofs.«174663_j13460427505739_2_alg».proof.Proof.Spec
import proofs.«174663_j13460427505739_2_alg».proof.Proof.LibERealSums

open scoped BigOperators
open Idealize.ShloMosaic

noncomputable section

namespace Attn

/-- Every key is column c of tile t for some t and c. -/
theorem key_surj (j : Fin 4096) : ∃ (t : Fin 8) (c : Fin 512), key t c = j :=
  ⟨⟨j.val / 512, by have := j.isLt; omega⟩, ⟨j.val % 512, Nat.mod_lt _ (by norm_num)⟩,
    Fin.ext (by show j.val / 512 * 512 + j.val % 512 = j.val; omega)⟩

/-- A sum over the 4096 keys is the sum over the tiles of the sums over their columns. -/
theorem sum_keys {M : Type*} [AddCommMonoid M] (f : Fin 4096 → M) :
    ∑ t : Fin 8, ∑ c : Fin 512, f (key t c) = ∑ j : Fin 4096, f j :=
  Cert.LibERealSums.sum_blocks_fin (a := 8) (b := 512) f

/-- The whole-row maximum taken tile by tile is the maximum over the keys. -/
theorem refMax_keys (s : Fin 4096 → EReal) :
    OnlineSoftmax.refMax (fun t c => s (key t c)) = (Finset.univ : Finset (Fin 4096)).fold max ⊥ s := by
  refine eq_of_forall_ge_iff fun x => ?_
  rw [OnlineSoftmax.refMax_le, Finset.fold_max_le]
  constructor
  · intro h
    refine ⟨bot_le, fun j _ => ?_⟩
    obtain ⟨t, c, rfl⟩ := key_surj j
    exact h t c
  · rintro ⟨_, h⟩ t c
    exact h (key t c) (Finset.mem_univ _)

/-- One row: the sum over the keys of the normalised weights times the values is the whole-row form by tiles. -/
theorem row_eq (s v : Fin 4096 → EReal) :
    ∑ j : Fin 4096, Ideal.div (Ideal.exp (s j - (Finset.univ : Finset (Fin 4096)).fold max ⊥ s))
        (0 + ∑ k : Fin 4096, Ideal.exp (s k - (Finset.univ : Finset (Fin 4096)).fold max ⊥ s)) * v j
      = OnlineSoftmax.refOut (fun t c => s (key t c)) (fun t c => v (key t c)) := by
  rw [OnlineSoftmax.refOut_eq, OnlineSoftmax.refDen_eq, refMax_keys, zero_add]
  generalize (Finset.univ : Finset (Fin 4096)).fold max ⊥ s = M
  rw [sum_keys (fun k => Ideal.exp (s k - M))]
  exact (sum_keys (fun j => Ideal.div (Ideal.exp (s j - M)) (∑ k : Fin 4096, Ideal.exp (s k - M)) * v j)).symm

end Attn

end
-- ==== Proof.RefScores.lean ====
/-
  The reference's projections and scaled scores, entry by entry.

  Entry (r, d) of each projection x w is the sum over k of x(r,k) w(k,d).  The scaled score of query row r
  against key row j is the sum over d of q(r,d) k(j,d), times the word of 1 divided by the square root of
  the word of 1024 (the scale as the reference computes it).
-/
import proofs.«174663_j13460427505739_2_alg».proof.Proof.Gen.ReferenceIdeal.Read
import proofs.«174663_j13460427505739_2_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx

/-- The input array: 4096 rows of width 1024. -/
abbrev In : Type := (⟨S4096x1024, .f32⟩ : BufTy).Contents (Elt Ideal)
/-- A weight array: 1024 rows of width 1024. -/
abbrev Wt : Type := (⟨S1024x1024, .f32⟩ : BufTy).Contents (Elt Ideal)

/-! ## The indices the projections read -/

theorem lidx_v0 (r : Fin 4096) (d k : Fin 1024) : lidx_main_v0 (ix2 r d) k = ix2 r k :=
  funext fun a => by match a with | ⟨0, _⟩ => rfl | ⟨1, _⟩ => rfl
theorem ridx_v0 (r : Fin 4096) (d k : Fin 1024) : ridx_main_v0 (ix2 r d) k = ix2 k d :=
  funext fun a => by match a with | ⟨0, _⟩ => rfl | ⟨1, _⟩ => rfl
theorem lidx_v1 (r : Fin 4096) (d k : Fin 1024) : lidx_main_v1 (ix2 r d) k = ix2 r k :=
  funext fun a => by match a with | ⟨0, _⟩ => rfl | ⟨1, _⟩ => rfl
theorem ridx_v1 (r : Fin 4096) (d k : Fin 1024) : ridx_main_v1 (ix2 r d) k = ix2 k d :=
  funext fun a => by match a with | ⟨0, _⟩ => rfl | ⟨1, _⟩ => rfl
theorem lidx_v2 (r : Fin 4096) (d k : Fin 1024) : lidx_main_v2 (ix2 r d) k = ix2 r k :=
  funext fun a => by match a with | ⟨0, _⟩ => rfl | ⟨1, _⟩ => rfl
theorem ridx_v2 (r : Fin 4096) (d k : Fin 1024) : ridx_main_v2 (ix2 r d) k = ix2 k d :=
  funext fun a => by match a with | ⟨0, _⟩ => rfl | ⟨1, _⟩ => rfl

/-! ## The three projections -/

/-- The query projection at (r, d). -/
theorem v0_ix2 (x : In) (w : Wt) (r : Fin 4096) (d : Fin 1024) :
    val_main_v0 (F := Ideal) x w (ix2 r d) = Attn.proj (Attn.mat x) (Attn.mat w) r d := by
  rw [val_main_v0_apply]
  unfold Attn.proj Attn.mat
  refine Finset.sum_congr rfl fun k _ => ?_
  rw [lidx_v0, ridx_v0]

/-- The key projection at (r, d). -/
theorem v1_ix2 (x : In) (w : Wt) (r : Fin 4096) (d : Fin 1024) :
    val_main_v1 (F := Ideal) x w (ix2 r d) = Attn.proj (Attn.mat x) (Attn.mat w) r d := by
  rw [val_main_v1_apply]
  unfold Attn.proj Attn.mat
  refine Finset.sum_congr rfl fun k _ => ?_
  rw [lidx_v1, ridx_v1]

/-- The value projection at (r, d). -/
theorem v2_ix2 (x : In) (w : Wt) (r : Fin 4096) (d : Fin 1024) :
    val_main_v2 (F := Ideal) x w (ix2 r d) = Attn.proj (Attn.mat x) (Attn.mat w) r d := by
  rw [val_main_v2_apply]
  unfold Attn.proj Attn.mat
  refine Finset.sum_congr rfl fun k _ => ?_
  rw [lidx_v2, ridx_v2]

/-! ## The scaled scores -/

theorem lidx_v6 (r j : Fin 4096) (k : Fin 1024) : lidx_main_v6 (ix2 r j) k = ix2 r k :=
  funext fun a => by match a with | ⟨0, _⟩ => rfl | ⟨1, _⟩ => rfl
/-- The transposed key projection is read at (j, k) where the product reads (k, j). -/
theorem idx_v5_ridx_v6 (r j : Fin 4096) (k : Fin 1024) : idx_main_v5 (ridx_main_v6 (ix2 r j) k) = ix2 j k :=
  funext fun a => by match a with | ⟨0, _⟩ => rfl | ⟨1, _⟩ => rfl

/-- The scale at any index: the word of 1 over the square root of the word of 1024. -/
theorem v7_apply (i : S4096x4096.Idx) : val_main_v7 (F := Ideal) i = Attn.invSqrt := by
  rw [val_main_v7_apply, val_main_v4_apply, val_main_v3_apply, val_main_cst_apply, val_main_cst_0_apply]
  rfl

/-- The scaled score of query row r against key row j. -/
theorem v8_ix2 (x : In) (wq wk : Wt) (r j : Fin 4096) :
    val_main_v8 (F := Ideal) x wq wk (ix2 r j)
      = (∑ d : Fin 1024, Attn.proj (Attn.mat x) (Attn.mat wq) r d * Attn.proj (Attn.mat x) (Attn.mat wk) j d)
          * Attn.invSqrt := by
  rw [val_main_v8_apply, val_main_v6_apply, v7_apply, Ideal.mulf_def]
  refine congrArg (· * Attn.invSqrt) (Finset.sum_congr rfl fun k _ => ?_)
  rw [val_main_v5_apply, lidx_v6, idx_v5_ridx_v6, v0_ix2, v1_ix2]

end Cert.ReferenceIdeal.RefValue

end
-- ==== Proof.LibHostRow.lean ====
/-
  A host reduction of a two-dimensional array over its last axis, read row by row on the extended reals.

  The host's maximum over the last axis of an [a, b] array, at row `p`, is the fold of `max` over the row's entries
  from the initial value — the two-dimensional companion of the row readings of a kernel's reductions.
-/
import Idealize.ShloMosaic.PureOps.Ideal.Laws
import Idealize.ShloMosaic.Lib.Pipeline.Value
import Idealize.ShloMosaic.Lib.ValueIdx
import proofs.«174663_j13460427505739_2_alg».proof.Proof.LibRowReduce

noncomputable section

namespace HostRow

open Idealize.ShloMosaic Idealize.ShloMosaic.ValueIdx RowReduce

/-- The host's maximum over the last axis of an [a, b] array, at row `p`: the fold of `max` over the row's
    entries from the initial value. -/
theorem hostReduce_max_row2 {a b : Nat} {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = foldMax (init (Shape.Idx.first hu)) fun k : Fin b => x (ix2 p k) := by
  refine (Host.reduce_eq_fold_single FloatOps.maximumf x init h' h hu (ix1 p)).trans ?_
  have hf : (x ∘ h.lift (ix1 p)) = fun k : Fin b => x (ix2 p k) := funext fun k => congrArg x (lift_last2 h p k)
  unfold foldMax
  exact congrArg (fun f => Finset.fold max (init (Shape.Idx.first hu)) f (Finset.univ : Finset (Fin b))) hf

end HostRow

end
-- ==== Proof.RefSoftmax.lean ====
/-
  The reference's softmax stages at an index, from its scaled scores.

  Write s j for the scaled score of query row r against key row j.  The row maximum M is the fold of max
  over the 4096 scores from the bottom element (the word of minus infinity), joined once more with that
  word; the weight of key j is exp (s j - M); the row sum L is 0 (the zero word) plus the sum of the
  weights; and entry (r, d) of the result is the sum over the keys j of (weight j / L) times the value
  projection at (j, d).
-/
import proofs.«174663_j13460427505739_2_alg».proof.Proof.RefScores
import proofs.«174663_j13460427505739_2_alg».proof.Proof.LibHostRow

open scoped BigOperators

noncomputable section

namespace Cert.ReferenceIdeal.RefValue

open Cert.ReferenceIdeal Cert.ReferenceIdeal.Gen Cert.ReferenceIdeal.Read Idealize.ShloMosaic Idealize.ShloMosaic.ValueIdx

/-- The word of minus infinity is the bottom element of the extended reals. -/
theorem negInf_eq_bot : Ideal.ofBits .f32 0xFF800000#32 = (⊥ : EReal) :=
  le_bot_iff.mp (max_eq_right_iff.mp (RowReduce.max_negInf ⊥))

/-- The maximum of row r of the scaled scores, folded from the bottom element. -/
def rowMax (x : In) (wq wk : Wt) (r : Fin 4096) : EReal :=
  (Finset.univ : Finset (Fin 4096)).fold max ⊥ fun j => val_main_v8 (F := Ideal) x wq wk (ix2 r j)

/-- The sum of the weights of row r, from zero. -/
def rowSum (x : In) (wq wk : Wt) (r : Fin 4096) : EReal :=
  0 + ∑ k : Fin 4096, Ideal.exp (val_main_v8 (F := Ideal) x wq wk (ix2 r k) - rowMax x wq wk r)

/-! ## The row maximum -/

/-- The host's maximum over the keys, at row r. -/
theorem v9_ix1 (x : In) (wq wk : Wt) (r : Fin 4096) :
    val_main_v9 (F := Ideal) x wq wk (ix1 r) = rowMax x wq wk r := by
  unfold val_main_v9 rowMax
  generalize val_main_v8 (F := Ideal) x wq wk = y
  rw [HostRow.hostReduce_max_row2 (a := 4096) (b := 4096) (φ := .f32) y (val_main_cst_1 (F := Ideal))
    reducesTo_S4096x4096_S4096_d1 (by decide) h_S_ r]
  unfold RowReduce.foldMax
  rw [val_main_cst_1_apply, Ideal.ofBits_def, negInf_eq_bot]

/-- Joined once more with the word of minus infinity, it is unchanged. -/
theorem v11_ix1 (x : In) (wq wk : Wt) (r : Fin 4096) :
    val_main_v11 (F := Ideal) x wq wk (ix1 r) = rowMax x wq wk r := by
  rw [val_main_v11_apply, val_main_v10_apply, val_main_cst_2_apply, v9_ix1, Ideal.maximumf_def, Ideal.ofBits_def,
    RowReduce.max_negInf]

theorem idx_v12_v13 (r j : Fin 4096) : idx_main_v12 (idx_main_v13 (ix2 r j)) = ix1 r :=
  funext fun a => by match a with | ⟨0, _⟩ => rfl

/-- The row maximum kept as a column and broadcast back, at (r, j). -/
theorem v13_ix2 (x : In) (wq wk : Wt) (r j : Fin 4096) :
    val_main_v13 (F := Ideal) x wq wk (ix2 r j) = rowMax x wq wk r := by
  rw [val_main_v13_apply, val_main_v12_apply, idx_v12_v13, v11_ix1]

/-! ## The weights and their sum -/

/-- The weight of key j in row r. -/
theorem v15_ix2 (x : In) (wq wk : Wt) (r j : Fin 4096) :
    val_main_v15 (F := Ideal) x wq wk (ix2 r j)
      = Ideal.exp (val_main_v8 (F := Ideal) x wq wk (ix2 r j) - rowMax x wq wk r) := by
  rw [val_main_v15_apply, val_main_v14_apply, v13_ix2, Ideal.hostUnary_exp_def, Ideal.subf_def]

theorem idx_v16 (r k : Fin 4096) : idx_main_v16 (ix1 r) k = ix2 r k :=
  funext fun a => by match a with | ⟨0, _⟩ => rfl | ⟨1, _⟩ => rfl

/-- The host's sum of the weights over the keys, at row r. -/
theorem v16_ix1 (x : In) (wq wk : Wt) (r : Fin 4096) :
    val_main_v16 (F := Ideal) x wq wk (ix1 r) = rowSum x wq wk r := by
  rw [val_main_v16_apply, val_main_cst_3_apply, Ideal.ofBits_def, Ideal.ofBits_zero_f32]
  unfold rowSum
  refine congrArg (0 + ·) (Finset.sum_congr rfl fun k _ => ?_)
  rw [idx_v16, v15_ix2]

theorem idx_v17_v18 (r j : Fin 4096) : idx_main_v17 (idx_main_v18 (ix2 r j)) = ix1 r :=
  funext fun a => by match a with | ⟨0, _⟩ => rfl

/-- The normalised weight of key j in row r. -/
theorem v19_ix2 (x : In) (wq wk : Wt) (r j : Fin 4096) :
    val_main_v19 (F := Ideal) x wq wk (ix2 r j)
      = Ideal.div (Ideal.exp (val_main_v8 (F := Ideal) x wq wk (ix2 r j) - rowMax x wq wk r)) (rowSum x wq wk r) := by
  rw [val_main_v19_apply, val_main_v18_apply, val_main_v17_apply, idx_v17_v18, v16_ix1, v15_ix2, Ideal.hostDivf_def]

/-! ## The weighted average of the values -/

theorem lidx_v20 (r : Fin 4096) (d : Fin 1024) (k : Fin 4096) : lidx_main_v20 (ix2 r d) k = ix2 r k :=
  funext fun a => by match a with | ⟨0, _⟩ => rfl | ⟨1, _⟩ => rfl
theorem ridx_v20 (r : Fin 4096) (d : Fin 1024) (k : Fin 4096) : ridx_main_v20 (ix2 r d) k = ix2 k d :=
  funext fun a => by match a with | ⟨0, _⟩ => rfl | ⟨1, _⟩ => rfl

/-- The result at (r, d): the sum over the keys of the normalised weights times the value projection. -/
theorem v20_ix2 (x : In) (wq wk wv : Wt) (r : Fin 4096) (d : Fin 1024) :
    val_main_v20 (F := Ideal) x wq wk wv (ix2 r d)
      = ∑ k : Fin 4096,
          Ideal.div (Ideal.exp (val_main_v8 (F := Ideal) x wq wk (ix2 r k) - rowMax x wq wk r)) (rowSum x wq wk r)
            * val_main_v2 (F := Ideal) x wv (ix2 k d) := by
  rw [val_main_v20_apply]
  refine Finset.sum_congr rfl fun k _ => ?_
  rw [lidx_v20, ridx_v20, v19_ix2]

end Cert.ReferenceIdeal.RefValue

end
-- ==== Proof.RefValue.lean ====
/-
  The value of the reference program.

  At every index (r, d) the reference's result is the whole-row softmax-weighted average of the value
  projection's column d, weighted by the scaled scores of query row r, the scores scaled after the product:
  the specification's whole-row form over 8 tiles of 512 keys.  Every weakly fair execution of the
  reference therefore ends with its result array equal to that function of the four argument arrays, the
  arguments unchanged.
-/
import proofs.«174663_j13460427505739_2_alg».proof.Proof.Gen.ReferenceIdeal.Read
import proofs.«174663_j13460427505739_2_alg».proof.Proof.Spec
import proofs.«174663_j13460427505739_2_alg».proof.Proof.RefRow
import proofs.«174663_j13460427505739_2_alg».proof.Proof.RefSoftmax

open scoped BigOperators

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The result at (r, d) is the specification's whole-row form. -/
theorem result_ix2 (x : In) (wq wk wv : Wt) (r : Fin 4096) (d : Fin 1024) :
    val_main_v20 (F := Ideal) x wq wk wv (ix2 r d)
      = Attn.referenceOut (Attn.mat x) (Attn.mat wq) (Attn.mat wk) (Attn.mat wv) r d := by
  rw [v20_ix2]
  unfold rowSum rowMax
  refine (Attn.row_eq (fun j => val_main_v8 (F := Ideal) x wq wk (ix2 r j))
    (fun j => val_main_v2 (F := Ideal) x wv (ix2 j d))).trans ?_
  unfold Attn.referenceOut Attn.scoreR Attn.vals
  congr 1
  · funext t c
    exact v8_ix2 x wq wk r (Attn.key t c)
  · funext t c
    exact v2_ix2 x wv (Attn.key t c) d

/-- The reference's result array as one function of its four argument arrays. -/
theorem result_eq (x : In) (wq wk wv : Wt) :
    val_main_v20 (F := Ideal) x wq wk wv
      = Attn.arr (Attn.referenceOut (Attn.mat x) (Attn.mat wq) (Attn.mat wk) (Attn.mat wv)) := by
  funext i
  obtain ⟨r, d, rfl⟩ : ∃ (r : Fin 4096) (d : Fin 1024), i = ix2 r d := ⟨i 0, i 1, eq_ix2 i⟩
  rw [Attn.arr_ix2]
  exact result_ix2 x wq wk wv r d

/-- On every device, from any memory with zero counters: every weakly fair execution of the reference
    terminates with its result the specification's whole-row form of the argument arrays, and the
    arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v20)
        = Attn.arr (Attn.referenceOut
            (Attn.mat (m ((c.tc : Thread Cert.ReferenceIdeal.nD Cert.ReferenceIdeal.τ).loc Cert.ReferenceIdeal.main_arg0)))
            (Attn.mat (m ((c.tc : Thread Cert.ReferenceIdeal.nD Cert.ReferenceIdeal.τ).loc Cert.ReferenceIdeal.main_arg1)))
            (Attn.mat (m ((c.tc : Thread Cert.ReferenceIdeal.nD Cert.ReferenceIdeal.τ).loc Cert.ReferenceIdeal.main_arg2)))
            (Attn.mat (m ((c.tc : Thread Cert.ReferenceIdeal.nD Cert.ReferenceIdeal.τ).loc Cert.ReferenceIdeal.main_arg3))))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun _ h c =>
      ⟨(h c).1.trans ((val_main_v20_eq (F := Ideal) _ _ _ _).trans (result_eq _ _ _ _)),
        (h c).2.1, (h c).2.2.1, (h c).2.2.2.1, (h c).2.2.2.2⟩)
    (Cert.ReferenceIdeal.Value.run (F := Ideal) m ρ)

end Cert.ReferenceIdeal.RefValue

end
-- ==== Proof.Bridge.lean ====
/-
  The kernel's row of the attention output equals the reference's.

  The two float words of the scales are evaluated: the word 0x3D000000 is the dyadic 2^-5 = 1/32; the word
  0x3F800000 is 1 and the word 0x44800000 is 1024 = 32^2, whose square root is 32, so 1 / sqrt 1024 is 1/32 too.

  On finite entries the two scores agree: the sum over d of (q(r,d) / 32) k(j,d) is (the sum over d of
  q(r,d) k(j,d)) / 32, a finite sum times a finite constant taken term by term and the factors of each term
  reordered. A projection of finite entries is finite (a finite sum of products of finite numbers), so the
  scores are finite: none is +infinity, the first one is not -infinity, and the values are real numbers. The
  8 tiles are the whole row (no tile lies beyond tile 7), so the running form over the 8 tiles is the
  whole-row softmax-weighted average.
-/
import proofs.«174663_j13460427505739_2_alg».proof.Proof.Spec
import proofs.«174663_j13460427505739_2_alg».proof.Proof.LibOnlineSoftmax
import proofs.«174663_j13460427505739_2_alg».proof.Proof.LibERealSums

noncomputable section

open scoped BigOperators
open Idealize.ShloMosaic
open Cert.LibERealSums

namespace Attn

/-- The float word 0x3D000000 (sign 0, exponent 122, fraction 0) is 2^(122 - 127) = 1/32. -/
theorem inv32_eq : inv32 = (((1:ℝ)/32 : ℝ) : EReal) := by
  simp [inv32, Ideal.ofBits, Ideal.ieee, -EReal.coe_mul]; norm_num

/-- The float word 0x3F800000 is the real 1. -/
theorem word_one : Ideal.ofBits .f32 0x3F800000#32 = ((1 : ℝ) : EReal) := by
  simp [Ideal.ofBits, Ideal.ieee, -EReal.coe_mul]; norm_num

/-- The float word 0x44800000 (exponent 137, fraction 0) is 2^10 = 1024. -/
theorem word_1024 : Ideal.ofBits .f32 0x44800000#32 = ((1024 : ℝ) : EReal) := by
  simp [Ideal.ofBits, Ideal.ieee, -EReal.coe_mul]; norm_num

/-- The square root of 1024 = 32^2 is 32. -/
theorem sqrt_1024 : Real.sqrt 1024 = 32 := by
  rw [show (1024 : ℝ) = 32 ^ 2 by norm_num]
  exact Real.sqrt_sq (by norm_num)

/-- One over the square root of 1024 is 1/32. -/
theorem invSqrt_eq : invSqrt = (((1:ℝ)/32 : ℝ) : EReal) := by
  unfold invSqrt
  rw [word_one, word_1024, Ideal.sqrt_coe, if_neg (by norm_num), sqrt_1024,
    Ideal.div_coe (by norm_num), ← EReal.coe_mul, one_mul]

/-- On finite entries, scaling the query before the product or the score after it gives the same score:
    the sum over d of (q / 32) k is (the sum over d of q k) / 32. -/
theorem scoreK_eq_scoreR (q k : Mat 4096 1024) (hq : ∀ r d, IsFin (q r d)) (hk : ∀ r d, IsFin (k r d))
    (r : Fin 4096) (t : Fin 8) (c : Fin 512) : scoreK q k r t c = scoreR q k r t c := by
  unfold scoreK scoreR
  rw [inv32_eq, invSqrt_eq,
    sum_mul_of_isFin _ _ _ (fun d => (hq r d).mul (hk (key t c) d)) (isFin_coe _)]
  exact Finset.sum_congr rfl fun d _ => mul_right_comm _ _ _

/-- A projection of finite entries has finite entries. -/
theorem isFin_proj (x : Mat 4096 1024) (w : Mat 1024 1024) (hx : ∀ r k, IsFin (x r k))
    (hw : ∀ k d, IsFin (w k d)) (r : Fin 4096) (d : Fin 1024) : IsFin (proj x w r d) := by
  unfold proj
  exact isFin_sum_mul (x r) (fun k => w k d) (hx r) (fun k => hw k d)

/-- The reference's scores of finite queries and keys are finite. -/
theorem isFin_scoreR (q k : Mat 4096 1024) (hq : ∀ r d, IsFin (q r d)) (hk : ∀ r d, IsFin (k r d))
    (r : Fin 4096) (t : Fin 8) (c : Fin 512) : IsFin (scoreR q k r t c) := by
  unfold scoreR
  rw [invSqrt_eq]
  exact (isFin_sum_mul (q r) (fun d => k (key t c) d) (hq r) (fun d => hk (key t c) d)).mul (isFin_coe _)

/-- On finite inputs the kernel's running form over the 8 tiles is the reference's whole-row average. -/
theorem kernelOut_eq_referenceOut (x : Mat 4096 1024) (wq wk wv : Mat 1024 1024)
    (hx : ∀ r k, IsFin (x r k)) (hwq : ∀ k d, IsFin (wq k d)) (hwk : ∀ k d, IsFin (wk k d))
    (hwv : ∀ k d, IsFin (wv k d)) (r : Fin 4096) (d : Fin 1024) :
    kernelOut x wq wk wv r d = referenceOut x wq wk wv r d := by
  have hq := isFin_proj x wq hx hwq
  have hk := isFin_proj x wk hx hwk
  have hv := isFin_proj x wv hx hwv
  have hS : scoreK (proj x wq) (proj x wk) r = scoreR (proj x wq) (proj x wk) r := by
    funext t c
    exact scoreK_eq_scoreR _ _ hq hk r t c
  have hfin := isFin_scoreR (proj x wq) (proj x wk) hq hk r
  unfold kernelOut referenceOut
  rw [hS]
  exact OnlineSoftmax.onlineOut_tiles_eq_refOut 7 (by norm_num)
    (scoreR (proj x wq) (proj x wk) r) (vals (proj x wv) d)
    (fun j _ c => (hfin j c).2)
    ⟨⟨0, by norm_num⟩, (hfin _ _).1⟩
    (fun j _ c => (hv (key j c) d).exists_coe)
    (fun j hj => absurd j.isLt (by omega))

end Attn

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«174663_j13460427505739_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.Finite.lean ====
/-
  From the precondition to finiteness of every input entry.

  The precondition says that the conjunction of four tests is 1, one test per argument array: "every entry v of the
  array satisfies |v| < +infinity", the comparison taken entry by entry against the float word 0x7F800000 (+infinity)
  spread over the array's shape, and the entries' results reduced by "and" to one bit. A conjunction of bits is 1 when
  each bit is 1; a reduction by "and" to one bit is 1 when every entry's bit is 1; and |v| < +infinity on the extended
  reals says that v is neither infinity, that is, a real number.
-/
import proofs.«174663_j13460427505739_2_alg».proof.Defs
import proofs.«174663_j13460427505739_2_alg».proof.Proof.LibFiniteTest
import Idealize.ShloMosaic.Lib.ReduceAll

noncomputable section

namespace Cert.KernelIdeal.Hand

open Idealize.ShloMosaic Idealize.SL.Sem Cert.LibERealSums Cert.LibFiniteTest

/-- Under the precondition every entry of each of the four argument arrays is a real number. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsFin (m ((c.tc : Thread Cert.KernelIdeal.nD Cert.KernelIdeal.τ).loc Cert.KernelIdeal.main_arg0) i))
    ∧ (∀ i, IsFin (m ((c.tc : Thread Cert.KernelIdeal.nD Cert.KernelIdeal.τ).loc Cert.KernelIdeal.main_arg1) i))
    ∧ (∀ i, IsFin (m ((c.tc : Thread Cert.KernelIdeal.nD Cert.KernelIdeal.τ).loc Cert.KernelIdeal.main_arg2) i))
    ∧ (∀ i, IsFin (m ((c.tc : Thread Cert.KernelIdeal.nD Cert.KernelIdeal.τ).loc Cert.KernelIdeal.main_arg3) i)) := by
  have e := congrFun (h c) ValueIdx.ix0
  dsimp only [Cert.Pre_finite_inputs.fn, Cert.Pre_finite_inputs.fn_part1] at e
  change IntOp.andi (IntOp.andi (IntOp.andi _ _) _) _ = 1#1 at e
  obtain ⟨e012, e3⟩ := IntOp.andi_eq_one.1 e
  obtain ⟨e01, e2⟩ := IntOp.andi_eq_one.1 e012
  obtain ⟨e0, e1⟩ := IntOp.andi_eq_one.1 e01
  exact ⟨fun i => isFin_of_test _ _ i (Host.reduce_andi_all _ _ _ _ _ e0 i),
    fun i => isFin_of_test _ _ i (Host.reduce_andi_all _ _ _ _ _ e1 i),
    fun i => isFin_of_test _ _ i (Host.reduce_andi_all _ _ _ _ _ e2 i),
    fun i => isFin_of_test _ _ i (Host.reduce_andi_all _ _ _ _ _ e3 i)⟩

end Cert.KernelIdeal.Hand

end
-- ==== Proof.lean ====
/-
  Single-head attention, 4096 positions of width 1024: a projection kernel and a tiled attention kernel
  against the plain matrix formulation.

  The kernel program converts the value weights to the shorter float format, computes the three
  projections in one kernel (the query projection scaled by the f32 word of 1/32 on the way out), and
  then walks, for each tile of 1024 queries, the 4096 keys in 8 tiles of 512, keeping a running row
  maximum, a running denominator and a running numerator in scratch, dividing at the last tile.  The
  reference multiplies the full score matrix by 1 / sqrt(1024), takes a whole-row softmax and multiplies
  by the values.

  Frames: each program runs to the end, faults nowhere and writes none of its four arguments — the two
  kernel programs by the run of their three segments (the conversion, the projection region, the attention
  region, the attention region's invariant carrying the scratch from point to point), the reference by its
  straight-line run.  The idealization rewrote no operation, so there is nothing to preserve.  On the
  extended reals both programs compute the same function of finite inputs: 1 / sqrt(1024) is 1/32, which
  moves through the finite score sums; the running form of softmax-weighted averaging equals the
  whole-row form because the running maximum is real after the first tile, the rescaling factors
  exp(old max - new max) multiply the accumulated weights exactly, and division by the positive real
  denominator distributes over the finite weighted sum.
-/
import proofs.«174663_j13460427505739_2_alg».proof.Defs
import proofs.«174663_j13460427505739_2_alg».proof.Proof.Gen.Kernel
import proofs.«174663_j13460427505739_2_alg».proof.Proof.Gen.KernelIdeal
import proofs.«174663_j13460427505739_2_alg».proof.Proof.Gen.ReferenceIdeal
import proofs.«174663_j13460427505739_2_alg».proof.Proof.Gen.Pre_finite_inputs
import proofs.«174663_j13460427505739_2_alg».proof.Proof.KRun
import proofs.«174663_j13460427505739_2_alg».proof.Proof.KernelValue
import proofs.«174663_j13460427505739_2_alg».proof.Proof.RefValue
import proofs.«174663_j13460427505739_2_alg».proof.Proof.Bridge
import proofs.«174663_j13460427505739_2_alg».proof.Proof.Finite

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs (its straight-line run, the result dropped) and leaves its arguments as launched. -/
theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefValue.ref_run m ρ)

/-- From memories agreeing on finite arguments both idealized programs end with the same result array: the kernel's
    tile-by-tile quotient is the reference's whole-row softmax average, entry by entry. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Attn.arr (Attn.kernelOut (Attn.mat (m ((c.tc : Thread Cert.KernelIdeal.nD Cert.KernelIdeal.τ).loc Cert.KernelIdeal.main_arg0))) (Attn.mat (m ((c.tc : Thread Cert.KernelIdeal.nD Cert.KernelIdeal.τ).loc Cert.KernelIdeal.main_arg1))) (Attn.mat (m ((c.tc : Thread Cert.KernelIdeal.nD Cert.KernelIdeal.τ).loc Cert.KernelIdeal.main_arg2))) (Attn.mat (m ((c.tc : Thread Cert.KernelIdeal.nD Cert.KernelIdeal.τ).loc Cert.KernelIdeal.main_arg3)))), ?_, ?_⟩
  · exact (θ_run (Cert.KernelIdeal.defs (F := Ideal)) _ _).mono
      (fun r h c => ⟨(h c).1.trans (Cert.KernelIdeal.Hand.kernel_value m ρ c), (h c).2⟩)
      (Cert.KernelIdeal.Hand.run_result (F := Ideal) m ρ)
  · refine (θ_run (Cert.ReferenceIdeal.defs (F := Ideal)) _ _).mono (fun r h c => ⟨(h c).1.trans ?_, (h c).2⟩)
      (Cert.ReferenceIdeal.RefValue.ref_run m' ρ')
    obtain ⟨hx, hwq, hwk, hwv⟩ := Cert.KernelIdeal.Hand.finite_of_pre (hPre := Cert.Pre_finite_inputs.Gen.facts) m hpre c
    rw [(hagree c).1, (hagree c).2.1, (hagree c).2.2.1, (hagree c).2.2.2]
    refine congrArg Attn.arr (funext fun r => funext fun d => ?_)
    exact (Attn.kernelOut_eq_referenceOut _ _ _ _
      (fun r k => hx (ValueIdx.ix2 r k)) (fun k e => hwq (ValueIdx.ix2 k e)) (fun k e => hwk (ValueIdx.ix2 k e)) (fun k e => hwv (ValueIdx.ix2 k e)) r d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
